-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x2048x1024 .f32) (main_arg1 : FVec F S3072x1024 .f32) (main_arg2 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x2048x1024 : Shape := ⟨3, ![4, 2048, 1024]⟩
abbrev S3072x1024 : Shape := ⟨2, ![3072, 1024]⟩
abbrev S1024x1024 : Shape := ⟨2, ![1024, 1024]⟩
abbrev S1024x3072 : Shape := ⟨2, ![1024, 3072]⟩
abbrev S8192x1024 : Shape := ⟨2, ![8192, 1024]⟩
abbrev S8192x3072 : Shape := ⟨2, ![8192, 3072]⟩
abbrev S512x1024 : Shape := ⟨2, ![512, 1024]⟩
abbrev S512x3072 : Shape := ⟨2, ![512, 3072]⟩
abbrev S4x2048x3072 : Shape := ⟨3, ![4, 2048, 3072]⟩
abbrev S1x256x128 : Shape := ⟨3, ![1, 256, 128]⟩
abbrev S1x2048x128 : Shape := ⟨3, ![1, 2048, 128]⟩
abbrev S256x128 : Shape := ⟨2, ![256, 128]⟩
abbrev S2048x128 : Shape := ⟨2, ![2048, 128]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 14
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S1024x3072, .f32⟩
  | .hbm, ⟨4, _⟩ => ⟨S1024x3072, .bf16⟩
  | .hbm, ⟨5, _⟩ => ⟨S1024x1024, .f32⟩
  | .hbm, ⟨6, _⟩ => ⟨S1024x1024, .bf16⟩
  | .hbm, ⟨7, _⟩ => ⟨S8192x1024, .f32⟩
  | .hbm, ⟨8, _⟩ => ⟨S8192x3072, .bf16⟩
  | .hbm, ⟨9, _⟩ => ⟨S4x2048x3072, .bf16⟩
  | .hbm, ⟨10, _⟩ => ⟨S4x2048x1024, .bf16⟩
  | .hbm, ⟨11, _⟩ => ⟨S8192x1024, .bf16⟩
  | .hbm, ⟨12, _⟩ => ⟨S8192x1024, .f32⟩
  | .hbm, ⟨13, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | .local _ .vmem, ⟨5, _⟩ => ⟨S1x256x128, .bf16⟩
  | .local _ .vmem, ⟨6, _⟩ => ⟨S1x256x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x256x128, .bf16⟩
  | .local _ .vmem, ⟨12, _⟩ => ⟨S1x256x128, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 8, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  transposes_S3072x1024_S1024x3072_1_0 : S3072x1024.Transposes [1, 0] S1024x3072
  bitsLt_bf16_f32 : FTy.bits .bf16 < FTy.bits .f32
  transposes_S1024x1024_S1024x1024_1_0 : S1024x1024.Transposes [1, 0] S1024x1024
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S4x2048x3072 : S8192x3072.ShapeCasts S4x2048x3072
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S256x128_o0_0_S256x64 : S256x128.Slices ![0, 0] S256x64
  slices_S2048x128_o0_0_S2048x64 : S2048x128.Slices ![0, 0] S2048x64
  reduces_S256x2048_S256 : S256x2048.Reduces [1] S256
  shapeCasts_S256_S256x1 : S256.ShapeCasts S256x1
  broadcasts_S256x1_S256x2048 : S256x1.Broadcasts S256x2048
  slices_S256x128_o0_64_S256x64 : S256x128.Slices ![0, 64] S256x64
  slices_S2048x128_o0_64_S2048x64 : S2048x128.Slices ![0, 64] S2048x64
  concatenates_S256x64_S256x64_S256x128_d1 : Shape.Concatenates [S256x64, S256x64] S256x128 1
  shapeCasts_S256x128_S1x256x128 : S256x128.ShapeCasts S1x256x128
  packedbf16_S1x256x128_S1x256x128_0_0_0 : (Rect.unit (s := S1x256x128) ![0, 0, 0] S1x256x128.size inb_S1x256x128_S1x256x128_0_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x1024_S4x2048x1024 : S8192x1024.ShapeCasts S4x2048x1024
  dot_S512x1024_S1024x3072_S512x3072_1_0_0_1_n_n_wf : DotDims.WF S512x1024 S1024x3072 S512x3072 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S8192x3072.size a
  hwx0_2 : ∀ i : grid0.Coords, EltTy.bits .bf16 = 32 ∨ (Rect.block (s := S8192x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x128.size a ≤ S4x2048x3072.size a
  hwx1_0 : ∀ i : grid1.Coords, EltTy.bits .bf16 = 32 ∨ (Rect.block (s := S4x2048x3072) S1x256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x3072.size a
  hwx1_1 : ∀ i : grid1.Coords, EltTy.bits .bf16 = 32 ∨ (Rect.block (s := S4x2048x3072) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S4x2048x3072.size a
  hwx1_2 : ∀ i : grid1.Coords, EltTy.bits .bf16 = 32 ∨ (Rect.block (s := S4x2048x3072) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x128.size a ≤ S4x2048x1024.size a
  hwx1_3 : ∀ i : grid1.Coords, EltTy.bits .bf16 = 32 ∨ (Rect.block (s := S4x2048x1024) S1x256x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x1024.size a
  hwx2_2 : ∀ i : grid2.Coords, EltTy.bits .f32 = 32 ∨ (Rect.block (s := S8192x1024) S1024x1024.size (cc2_transform_2 i) (hinb2_2 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v4) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S1024x1024 : Shape := ⟨2, ![1024, 1024]⟩
abbrev S4x2048x3072 : Shape := ⟨3, ![4, 2048, 3072]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S4x2048x3072, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x16x64, .f32⟩
  | .hbm, ⟨8, _⟩ => ⟨S4x16x2048x64, .f32⟩
  | .hbm, ⟨9, _⟩ => ⟨S4x2048x16x64, .f32⟩
  | .hbm, ⟨10, _⟩ => ⟨S4x16x2048x64, .f32⟩
  | .hbm, ⟨11, _⟩ => ⟨S4x2048x16x64, .f32⟩
  | .hbm, ⟨12, _⟩ => ⟨S4x16x2048x64, .f32⟩
  | .hbm, ⟨13, _⟩ => ⟨S4x16x2048x2048, .f32⟩
  | .hbm, ⟨14, _⟩ => ⟨S_, .f32⟩
  | .hbm, ⟨15, _⟩ => ⟨S_, .f32⟩
  | .hbm, ⟨16, _⟩ => ⟨S4x16x2048x2048, .f32⟩
  | .hbm, ⟨17, _⟩ => ⟨S4x16x2048x2048, .f32⟩
  | .hbm, ⟨18, _⟩ => ⟨S_, .f32⟩
  | .hbm, ⟨19, _⟩ => ⟨S4x16x2048, .f32⟩
  | .hbm, ⟨20, _⟩ => ⟨S_, .f32⟩
  | .hbm, ⟨21, _⟩ => ⟨S4x16x2048, .f32⟩
  | .hbm, ⟨22, _⟩ => ⟨S4x16x2048, .f32⟩
  | .hbm, ⟨23, _⟩ => ⟨S4x16x2048x1, .f32⟩
  | .hbm, ⟨24, _⟩ => ⟨S4x16x2048x2048, .f32⟩
  | .hbm, ⟨25, _⟩ => ⟨S4x16x2048x2048, .f32⟩
  | .hbm, ⟨26, _⟩ => ⟨S4x16x2048x2048, .f32⟩
  | .hbm, ⟨27, _⟩ => ⟨S_, .f32⟩
  | .hbm, ⟨28, _⟩ => ⟨S4x16x2048, .f32⟩
  | .hbm, ⟨29, _⟩ => ⟨S4x16x2048x1, .f32⟩
  | .hbm, ⟨30, _⟩ => ⟨S4x16x2048x2048, .f32⟩
  | .hbm, ⟨31, _⟩ => ⟨S4x16x2048x2048, .f32⟩
  | .hbm, ⟨32, _⟩ => ⟨S4x16x2048x64, .f32⟩
  | .hbm, ⟨33, _⟩ => ⟨S4x2048x16x64, .f32⟩
  | .hbm, ⟨34, _⟩ => ⟨S4x2048x1024, .f32⟩
  | .hbm, ⟨35, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]

class Facts₀ : Prop where
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.K.Reg0.lean ====
/-
  Region 0: a tiled matrix product. At grid point t the pipeline stages a block of rows of the left operand
  (window 0), the whole right operand (window 1, fetched once: its block index never moves) and the matching block of
  rows of the result (window 2). The body reads the two input buffers whole, forms the product, and stores it over
  the whole result buffer; what it read of the result buffer beforehand is not used. So after the body the result
  buffer holds the product of the two input blocks, whatever it held before, and the input buffers are as found.
-/
import proofs.«102155_j63780264346209_2_alg».proof.Proof.Gen.Kernel.Launch
import proofs.«102155_j63780264346209_2_alg».proof.Proof.Gen.Kernel.Skeleton
import proofs.«102155_j63780264346209_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_in0 : Rect S512x1024 := Rect.unit (s := S512x1024) ![0, 0] S512x1024.size inb_S512x1024_S512x1024_0_0
abbrev r0_in1 : Rect S1024x3072 := Rect.unit (s := S1024x3072) ![0, 0] S1024x3072.size inb_S1024x3072_S1024x3072_0_0
abbrev r0_out : Rect S512x3072 := Rect.unit (s := S512x3072) ![0, 0] S512x3072.size inb_S512x3072_S512x3072_0_0

/-! ## What the body leaves in the result window's buffer -/

/-- The result buffer after the body: its one store, of the product of what the two loads read. -/
def out0_2 (x0 : Vec F S512x1024 .f32) (x1 : Vec F S1024x3072 .bf16) : Vec F S512x3072 .bf16 :=
  View.canon [⟨r0_out, k0_pay1 (View.ld x0 r0_in0) (View.ld x1 r0_in1)⟩]

/-- The store is of the whole buffer, so it covers it. -/
theorem cover0_2 (p0 : Vec F S512x3072 .bf16) (y : S512x3072.Idx) :
    ∃ pc ∈ ([⟨r0_out, p0⟩] : List (View.Piece (Elt F) S512x3072 .bf16)), y ∈ pc.1.set :=
  View.cover_of_tiled [⟨r0_out, p0⟩] S512x3072.size (by rfl) y

/-! ## The body's triple -/

set_option maxHeartbeats 1000000 in
/-- The kernel body on whole staging memrefs, the inputs' at read contents `x0`, `x1` and the result's at anything, runs to
    the continuation holding the inputs' as they were and the result's at `out0_2 x0 x1`. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S512x3072 .bf16) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t`
    each input's buffer at its block and the result's at the product of the two input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.K.Reg1.lean ====
/-
  Region 1: attention for a pair of heads. At grid point t = (batch, head pair, query tile) the pipeline stages a
  256-row block of the pair's 128 query columns (window 0), all 2048 rows of the pair's 128 key columns (window 1) and
  of its 128 value columns (window 2) — three windows onto ONE array, the fused projection, each a different column
  band — and the matching 256 × 128 block of the output (window 3). The body reads the three input buffers whole,
  computes each head's softmax-weighted sum of value rows, and stores the two heads' results side by side over the
  whole output buffer. The key and value windows' block index moves only when the batch or the head pair does; at
  the other points their buffers still hold the block of the point before, which is this point's.
-/
import proofs.«102155_j63780264346209_2_alg».proof.Proof.Gen.Kernel.Launch
import proofs.«102155_j63780264346209_2_alg».proof.Proof.Gen.Kernel.Skeleton
import proofs.«102155_j63780264346209_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_q : Rect S1x256x128 := Rect.unit (s := S1x256x128) ![0, 0, 0] S1x256x128.size inb_S1x256x128_S1x256x128_0_0_0
abbrev r1_kv : Rect S1x2048x128 := Rect.unit (s := S1x2048x128) ![0, 0, 0] S1x2048x128.size inb_S1x2048x128_S1x2048x128_0_0_0

/-! ## What the body leaves in the output window's buffer -/

/-- The output buffer after the body: its one store, of the two heads' results side by side, each computed from
    what the three loads read. -/
def out1_3 (x0 : Vec F S1x256x128 .bf16) (x1 x2 : Vec F S1x2048x128 .bf16) : Vec F S1x256x128 .bf16 :=
  View.canon [⟨r1_q, k1_pay1 (k1_pay5 (View.ld x0 r1_q) (View.ld x1 r1_kv) (View.ld x2 r1_kv)) (k1_pay6 (View.ld x2 r1_kv))
    (k1_pay7 (View.ld x0 r1_q) (View.ld x1 r1_kv))⟩]

/-- The store is of the whole buffer, so it covers it. -/
theorem cover1_3 (p0 : Vec F S1x256x128 .bf16) (y : S1x256x128.Idx) :
    ∃ pc ∈ ([⟨r1_q, p0⟩] : List (View.Piece (Elt F) S1x256x128 .bf16)), y ∈ pc.1.set :=
  View.cover_of_tiled [⟨r1_q, p0⟩] S1x256x128.size (by rfl) y

/-! ## The body's triple -/

set_option maxHeartbeats 1000000 in
/-- The kernel body on whole staging memrefs, the inputs' at read contents `x0`, `x1`, `x2` and the output's at anything,
    runs to the continuation holding the inputs' as they were and the output's at `out1_3 x0 x1 x2`. -/
theorem sound_kernel1 (c : Dev nD) (E : Set ℕ) (i : grid1.Coords)
    (arg3 : Memref sig .tc .vmem S1x256x128 .bf16) (harg3 : arg3.IsWhole)
    (arg4 : Memref sig .tc .vmem S1x2048x128 .bf16) (harg4 : arg4.IsWhole)
    (arg5 : Memref sig .tc .vmem S1x2048x128 .bf16) (harg5 : arg5.IsWhole)
    (arg6 : Memref sig .tc .vmem S1x256x128 .bf16) (harg6 : arg6.IsWhole)
    (x0 : Vec F S1x256x128 .bf16) (x1 x2 : Vec F S1x2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The three shares the one projection array is read at, one per input window: two quarters and a half of the whole. -/
abbrev share1 : Fin cfg1.W → PosShare TreeShare := fun w => match w with
  | ⟨0, _⟩ => fullShare.left.left
  | ⟨1, _⟩ => fullShare.left.right
  | _ => fullShare.right

/-- The proof data of pipeline 1 on core `c`: the arrays as the region finds them; after the body at point `t`
    each input's buffer at its block and the output's at the body's result of the three input blocks; the invariant the
    scoped rest and the generator register, untouched; nothing owed; the shared array read at three shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := share1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.K.Reg1Arrays.lean ====
/-
  Region 1's arrays: its three input windows read ONE array, the fused projection, so the array's buffer, held whole
  when the region is entered, is split among them along the share — two quarters and a half — and put together again
  at the exit, where all three still hold the contents they were entered with (an input window's array is never
  written); the output window's array is a buffer of its own, held whole.
-/
import proofs.«102155_j63780264346209_2_alg».proof.Proof.K.Reg1

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind region 1's arrays: the projection and the attention output. -/
theorem arrRefs1 : (Finset.univ.image (Pipeline.arrRef spec1)) = ({main_v6, main_v7} : Finset (Ref sig .tc)) := by decide

/-- The region's array conjunction, window by window, for any contents `G`. -/
theorem arrays1_chain (c : Dev nD) (G : (w : Fin cfg1.W) → Buf (Elt F) ((cfg1.win w).arr.view.loc (c.tc : Thread nD τ))) :
    ((dat1 V c).arrays G : sProp 𝕄)
      = iprop((((c : Thread nD τ).loc main_v6) ↦{fullShare.left.left} G 0) ∗ (((c : Thread nD τ).loc main_v6) ↦{fullShare.left.right} G 1)
          ∗ (((c : Thread nD τ).loc main_v6) ↦{fullShare.right} G 2) ∗ (((c : Thread nD τ).loc main_v7) ↦{fullShare} G 3)) := by
  unfold Dat.arrays
  rw [bigSep_W1, (arr_whole1 0).set_eq_univ, (arr_whole1 3).set_eq_univ]
  rfl

/-- The buffers behind the region's arrays, each whole at contents `V c`: the projection's and the output's. -/
theorem arrBufs1_eq (c : Dev nD) :
    (Pipeline.arrBufs (Ix := Unit) (Name := ℕ) (U := UR sig nD τ) (Lvl := ℕ) spec1 c (V c) : sProp 𝕄)
      = iprop((((c : Thread nD τ).loc main_v6) ↦{fullShare} V c main_v6) ∗ (((c : Thread nD τ).loc main_v7) ↦{fullShare} V c main_v7)) := by
  unfold Pipeline.arrBufs
  rw [arrRefs1, bigSep_insert (by decide), bigSep_singleton]
  rfl

/-- ENTRY: the two buffers, each whole at the entry contents, make the four windows' arrays. -/
theorem arrays1_entry (c : Dev nD) :
    (Pipeline.arrBufs (Ix := Unit) (Name := ℕ) (U := UR sig nD τ) (Lvl := ℕ) spec1 c (V c) : sProp 𝕄)
      ⊢ (dat1 V c).arrays (fun w => (dat1 V c).arrAt w 0) := by
  rw [arrays1_chain, arrBufs1_eq]
  iintro ⟨H6, H7⟩
  ihave H6' := (pointsTo_share (PosShare.mem_left_op_right fullShare)).1 $$ H6
  icases H6' with ⟨H6l, H6r⟩
  ihave H6l' := (pointsTo_share (PosShare.mem_left_op_right fullShare.left)).1 $$ H6l
  icases H6l' with ⟨H6ll, H6lr⟩
  isplitl [H6ll]; · iexact H6ll
  isplitl [H6lr]; · iexact H6lr
  isplitl [H6r]; · iexact H6r
  iexact H7

/-- An input window's array holds at the exit what it held at the entry. -/
theorem arrAt1_in (c : Dev nD) (n : Nat) :
    (dat1 V c).arrAt 0 n = V c main_v6 ∧ (dat1 V c).arrAt 1 n = V c main_v6 ∧ (dat1 V c).arrAt 2 n = V c main_v6 :=
  ⟨((dat1 V c).arrAt_in 0 rfl n).trans (A_eq1 V c 0), ((dat1 V c).arrAt_in 1 rfl n).trans (A_eq1 V c 1),
    ((dat1 V c).arrAt_in 2 rfl n).trans (A_eq1 V c 2)⟩

/-- EXIT: the four windows' arrays at their final contents make the two buffers whole again, the projection at
    its entry contents and the output at what the write-backs left. -/
theorem arrays1_exit (c : Dev nD) :
    ((dat1 V c).arrays (fun w => (dat1 V c).arrAt w cfg1.N) : sProp 𝕄)
      ⊢ iprop((((c : Thread nD τ).loc main_v6) ↦{fullShare} V c main_v6) ∗ (((c : Thread nD τ).loc main_v7) ↦{fullShare} (dat1 V c).arrAt 3 cfg1.N)) := by
  rw [arrays1_chain]
  obtain ⟨h0, h1, h2⟩ := arrAt1_in V c cfg1.N
  iintro ⟨H0, H1, H2, H3⟩
  isplitr [H3]
  swap; · iexact H3
  iapply (pointsTo_share (PosShare.mem_left_op_right fullShare)).2
  isplitl [H0 H1]
  · iapply (pointsTo_share (PosShare.mem_left_op_right fullShare.left)).2
    isplitl [H0]
    · rw [← h0]; iexact H0
    · rw [← h1]; iexact H1
  · rw [← h2]; iexact H2

end Cert.Kernel.Frame

end
-- ==== Proof.K.Reg2.lean ====
/-
  Region 2: a tiled matrix product. At grid point t the pipeline stages a block of rows of the left operand
  (window 0), the whole right operand (window 1, fetched once: its block index never moves) and the matching block of
  rows of the result (window 2). The body reads the two input buffers whole, forms the product, and stores it over
  the whole result buffer; what it read of the result buffer beforehand is not used. So after the body the result
  buffer holds the product of the two input blocks, whatever it held before, and the input buffers are as found.
-/
import proofs.«102155_j63780264346209_2_alg».proof.Proof.Gen.Kernel.Launch
import proofs.«102155_j63780264346209_2_alg».proof.Proof.Gen.Kernel.Skeleton
import proofs.«102155_j63780264346209_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: where it is not
    fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_in0 : Rect S1024x1024 := Rect.unit (s := S1024x1024) ![0, 0] S1024x1024.size inb_S1024x1024_S1024x1024_0_0
abbrev r2_in1 : Rect S1024x1024 := Rect.unit (s := S1024x1024) ![0, 0] S1024x1024.size inb_S1024x1024_S1024x1024_0_0
abbrev r2_out : Rect S1024x1024 := Rect.unit (s := S1024x1024) ![0, 0] S1024x1024.size inb_S1024x1024_S1024x1024_0_0

/-! ## What the body leaves in the result window's buffer -/

/-- The result buffer after the body: its one store, of the product of what the two loads read. -/
def out2_2 (x0 : Vec F S1024x1024 .bf16) (x1 : Vec F S1024x1024 .bf16) : Vec F S1024x1024 .f32 :=
  View.canon [⟨r2_out, k2_pay1 (View.ld x0 r2_in0) (View.ld x1 r2_in1)⟩]

/-- The store is of the whole buffer, so it covers it. -/
theorem cover2_2 (p0 : Vec F S1024x1024 .f32) (y : S1024x1024.Idx) :
    ∃ pc ∈ ([⟨r2_out, p0⟩] : List (View.Piece (Elt F) S1024x1024 .f32)), y ∈ pc.1.set :=
  View.cover_of_tiled [⟨r2_out, p0⟩] S1024x1024.size (by rfl) y

/-! ## The body's triple -/

set_option maxHeartbeats 1000000 in
/-- The kernel body on whole staging memrefs, the inputs' at read contents `x0`, `x1` and the result's at anything, runs to
    the continuation holding the inputs' as they were and the result's at `out2_2 x0 x1`. -/
theorem sound_kernel2 (c : Dev nD) (E : Set ℕ) (i : grid2.Coords)
    (arg1 : Memref sig .tc .vmem S1024x1024 .bf16) (harg1 : arg1.IsWhole)
    (arg2 : Memref sig .tc .vmem S1024x1024 .bf16) (harg2 : arg2.IsWhole)
    (arg3 : Memref sig .tc .vmem S1024x1024 .f32) (harg3 : arg3.IsWhole)
    (x0 : Vec F S1024x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them; after the body at point `t`
    each input's buffer at its block and the result's at the product of the two input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.K.Run.lean ====
/-
  The run of @main: four stretches of host operations around the three regions. Between two items a core's
  unscoped buffers hold a valuation folded from the launch memory: a host stretch applies its operations, a region
  replaces its output array by what its write-backs leave and changes nothing else. Every weakly fair execution
  terminates without a fault, and at the end every unscoped buffer holds the last valuation; in particular the three
  argument arrays, which nothing writes, hold what they were launched with.
-/
import proofs.«102155_j63780264346209_2_alg».proof.Proof.K.Reg0
import proofs.«102155_j63780264346209_2_alg».proof.Proof.K.Reg1Arrays
import proofs.«102155_j63780264346209_2_alg».proof.Proof.K.Reg2

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the first host stretch (the weights transposed and rounded, the input flattened): region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its result array at what the write-backs leave, everything else as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the projection reshaped to batch × row × column): region 1's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit: the attention output at what the write-backs leave, everything else — the projection its
    three input windows read included — as entered. -/
def W4 (c : Dev nD) : Valuation τ sig (Elt F) :=
  Function.update (W3 m c) (Proc.devRef .tc main_v7) ((dat1 (V3 m) c).arrAt 3 cfg1.N)
theorem W4_out (c : Dev nD) : W4 m c (Proc.devRef .tc main_v7) = (dat1 (V3 m) c).arrAt 3 cfg1.N := by
  unfold W4; exact Function.update_self ..
theorem W4_of_ne (c : Dev nD) (b : Ref sig .tc) (hb : b ≠ main_v7) :
    W4 m c (Proc.devRef .tc b) = W3 m c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m c b

/-- After the third host stretch (the attention output flattened): region 2's entry. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- After the last host stretch (the result reshaped to batch × row × column): the end. -/
abbrev W7 : Dev nD → Valuation τ sig (Elt F) := fun c => StableHlo.after hostOps3 (W6 m c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last valuation, the generator register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What region 1 leaves: the rest as entered, the projection whole again, the attention output at the write-backs'. -/
theorem exit1_bufs (c : Dev nD) :
    iprop((((c : Thread nD τ).loc main_v6) ↦{fullShare} V3 m c main_v6) ∗ (((c : Thread nD τ).loc main_v7) ↦{fullShare} (dat1 (V3 m) c).arrAt 3 cfg1.N)
        ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := by
  rw [← Pipeline.unscopedBufs_held (Ix := Unit) (Name := ℕ) (U := UR sig nD τ) (Lvl := ℕ) c (W4 m c),
    Pipeline.unscopedBufs_split₀ cfgs 1 winFacts₀1.arr_unscoped c (V4 m c)]
  show _ ⊢ iprop(Pipeline.arrBufs spec1 c (V4 m c) ∗ Pipeline.unscopedRest spec1 c (V4 m c))
  rw [arrBufs1_eq (V4 m) c]
  unfold Pipeline.unscopedRest
  iintro ⟨H6, H7, Hrest⟩
  isplitl [H6 H7]
  · isplitl [H6]
    · rw [show V4 m c main_v6 = V3 m c main_v6 from W4_of_ne m c main_v6 (by decide)]; iexact H6
    · rw [show V4 m c main_v7 = (dat1 (V3 m) c).arrAt 3 cfg1.N from W4_out m c]; iexact H7
  · iapply (Entails.of_eq (bigSep_congr fun b hb => by
      rw [show V4 m c b = V3 m c b from W4_of_ne m c b (fun e => (Finset.mem_sdiff.mp hb).2 (by rw [e, arrRefs1]; decide))]))
    iexact Hrest

set_option backward.isDefEq.respectTransparency.types false in
/-- Region 1 over the thread state: entered from every unscoped buffer at `W3`, left at `W4`; the projection's buffer
    split among its three input windows at the entry and put together at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (StableHlo.held (c : Thread nD τ) (Pipeline.ucRefs τ sig) (W3 m c) : sProp 𝕄)
        ⊢ iprop(Pipeline.arrBufs spec1 c (V3 m c) ∗ Pipeline.unscopedRest spec1 c (V3 m c)) := by
      rw [← Pipeline.unscopedBufs_held (Ix := Unit) (Name := ℕ) (U := UR sig nD τ) (Lvl := ℕ) c (W3 m c),
        Pipeline.unscopedBufs_split₀ cfgs 1 winFacts₀1.arr_unscoped c (V3 m c)]
      exact .rfl
    iintro ⟨⟨Hub, Hp, HO⟩, -, -⟩
    ihave H := hsplit $$ Hub
    icases H with ⟨Ha, Hrest⟩
    ihave Ha' := (arrays1_entry (V3 m) c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hx : ((pdats m 1 c).arrays (fun x => (pdats m 1 c).arrAt x (Pipeline.pin (pcfgs (F := F)) adm 1).N) : sProp 𝕄)
        ⊢ iprop((((c : Thread nD τ).loc main_v6) ↦{fullShare} V3 m c main_v6) ∗ (((c : Thread nD τ).loc main_v7) ↦{fullShare} (dat1 (V3 m) c).arrAt 3 cfg1.N)) :=
      arrays1_exit (V3 m) c
    iintro ⟨Ha, HO, HY, Hrest⟩
    ihave Ha' := hx $$ Ha
    icases Ha' with ⟨H6, H7⟩
    imodintro
    isplitl [H6 H7 Hrest]
    · iapply (exit1_bufs m c)
      isplitl [H6]; · iexact H6
      isplitl [H7]; · iexact H7
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m),
    .host (hseg hostOps2 hostOps2_sub hostOps2_fresh' (W4 m)),
    .region (reg2 m),
    .host (hseg hostOps3 hostOps3_sub hostOps3_fresh' (W6 m)) ]
theorem main_run (c : Dev nD) : main (F := F) c = Pipeline.Seg.run (segs m) := (main_chain c).trans (by chain_rfl)

set_option backward.isDefEq.respectTransparency.types false in
/-- THE RUN: from any memory with zero counters, every weakly fair execution of @main on the TensorCores terminates,
    nothing faulting, and in every final state every unscoped buffer of every core holds the last valuation `W7`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => (show iprop(StableHlo.held (c : Thread nD τ) (Pipeline.ucRefs τ sig) (W7 m c) ∗ R c)
          ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.Kernel.Frame

end
-- ==== Proof.K.Frame.lean ====
/-
  The frame: the three argument arrays end as launched. No host operation writes an argument and no region has one
  among its arrays, so the fold of valuations, read at an argument's buffer, walks back to the launch memory.
-/
import proofs.«102155_j63780264346209_2_alg».proof.Proof.K.Run
import proofs.«102155_j63780264346209_2_alg».proof.Proof.Gen.Kernel.Regions

set_option maxRecDepth 16384

noncomputable section

namespace Cert.Kernel.Frame

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-! ## What each item leaves unchanged -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h
theorem W7_of (c : Dev nD) (r : Ref sig .tc) (h : r ∉ hostOps3_W) : W7 m c r = W6 m c r :=
  StableHlo.after_of_writes_sub hostOps3 _ hostOps3_writes h

/-- A buffer that no host stretch writes and that is no region's array holds at the end what it held at launch. -/
theorem W7_untouched (c : Dev nD) (r : Ref sig .tc) (h0 : r ∉ hostOps0_W) (h1 : r ∉ hostOps1_W) (h2 : r ∉ hostOps2_W) (h3 : r ∉ hostOps3_W)
    (a0 : ∀ w, Pipeline.arrRef spec0 w ≠ r) (a1 : r ≠ main_v7) (a2 : ∀ w, Pipeline.arrRef spec2 w ≠ r) :
    W7 m c r = m ((c : Thread nD τ).loc r) :=
  (W7_of m c r h3).trans <| (W6_of_ne m c r a2).trans <| (W5_of m c r h2).trans <| (W4_of_ne m c r a1).trans <|
    (W3_of m c r h1).trans <| (W2_of_ne m c r a0).trans <| (W1_of m c r h0).trans rfl

theorem W7_main_arg0 (c : Dev nD) : W7 m c main_arg0 = m ((c : Thread nD τ).loc main_arg0) :=
  W7_untouched m c main_arg0 (by decide) (by decide) (by decide) (by decide) (by decide) (by decide) (by decide)
theorem W7_main_arg1 (c : Dev nD) : W7 m c main_arg1 = m ((c : Thread nD τ).loc main_arg1) :=
  W7_untouched m c main_arg1 (by decide) (by decide) (by decide) (by decide) (by decide) (by decide) (by decide)
theorem W7_main_arg2 (c : Dev nD) : W7 m c main_arg2 = m ((c : Thread nD τ).loc main_arg2) :=
  W7_untouched m c main_arg2 (by decide) (by decide) (by decide) (by decide) (by decide) (by decide) (by decide)

/-- THE FRAME, at any instance: every weakly fair execution terminates without a fault, the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c)⟩) (run_main m ρ)

end Cert.Kernel.Frame

end
-- ==== Proof.KI.Reg0.lean ====
/-
  Region 0: a tiled matrix product. At grid point t the pipeline stages a block of rows of the left operand
  (window 0), the whole right operand (window 1, fetched once: its block index never moves) and the matching block of
  rows of the result (window 2). The body reads the two input buffers whole, forms the product, and stores it over
  the whole result buffer; what it read of the result buffer beforehand is not used. So after the body the result
  buffer holds the product of the two input blocks, whatever it held before, and the input buffers are as found.
-/
import proofs.«102155_j63780264346209_2_alg».proof.Proof.Gen.KernelIdeal.Launch
import proofs.«102155_j63780264346209_2_alg».proof.Proof.Gen.KernelIdeal.Skeleton
import proofs.«102155_j63780264346209_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_in0 : Rect S512x1024 := Rect.unit (s := S512x1024) ![0, 0] S512x1024.size inb_S512x1024_S512x1024_0_0
abbrev r0_in1 : Rect S1024x3072 := Rect.unit (s := S1024x3072) ![0, 0] S1024x3072.size inb_S1024x3072_S1024x3072_0_0
abbrev r0_out : Rect S512x3072 := Rect.unit (s := S512x3072) ![0, 0] S512x3072.size inb_S512x3072_S512x3072_0_0

/-! ## What the body leaves in the result window's buffer -/

/-- The result buffer after the body: its one store, of the product of what the two loads read. -/
def out0_2 (x0 : Vec F S512x1024 .f32) (x1 : Vec F S1024x3072 .bf16) : Vec F S512x3072 .bf16 :=
  View.canon [⟨r0_out, k0_pay1 (View.ld x0 r0_in0) (View.ld x1 r0_in1)⟩]

/-- The store is of the whole buffer, so it covers it. -/
theorem cover0_2 (p0 : Vec F S512x3072 .bf16) (y : S512x3072.Idx) :
    ∃ pc ∈ ([⟨r0_out, p0⟩] : List (View.Piece (Elt F) S512x3072 .bf16)), y ∈ pc.1.set :=
  View.cover_of_tiled [⟨r0_out, p0⟩] S512x3072.size (by rfl) y

/-! ## The body's triple -/

set_option maxHeartbeats 1000000 in
/-- The kernel body on whole staging memrefs, the inputs' at read contents `x0`, `x1` and the result's at anything, runs to
    the continuation holding the inputs' as they were and the result's at `out0_2 x0 x1`. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S512x3072 .bf16) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t`
    each input's buffer at its block and the result's at the product of the two input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.Reg1.lean ====
/-
  Region 1: attention for a pair of heads. At grid point t = (batch, head pair, query tile) the pipeline stages a
  256-row block of the pair's 128 query columns (window 0), all 2048 rows of the pair's 128 key columns (window 1) and
  of its 128 value columns (window 2) — three windows onto ONE array, the fused projection, each a different column
  band — and the matching 256 × 128 block of the output (window 3). The body reads the three input buffers whole,
  computes each head's softmax-weighted sum of value rows, and stores the two heads' results side by side over the
  whole output buffer. The key and value windows' block index moves only when the batch or the head pair does; at
  the other points their buffers still hold the block of the point before, which is this point's.
-/
import proofs.«102155_j63780264346209_2_alg».proof.Proof.Gen.KernelIdeal.Launch
import proofs.«102155_j63780264346209_2_alg».proof.Proof.Gen.KernelIdeal.Skeleton
import proofs.«102155_j63780264346209_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_q : Rect S1x256x128 := Rect.unit (s := S1x256x128) ![0, 0, 0] S1x256x128.size inb_S1x256x128_S1x256x128_0_0_0
abbrev r1_kv : Rect S1x2048x128 := Rect.unit (s := S1x2048x128) ![0, 0, 0] S1x2048x128.size inb_S1x2048x128_S1x2048x128_0_0_0

/-! ## What the body leaves in the output window's buffer -/

/-- The output buffer after the body: its one store, of the two heads' results side by side, each computed from
    what the three loads read. -/
def out1_3 (x0 : Vec F S1x256x128 .bf16) (x1 x2 : Vec F S1x2048x128 .bf16) : Vec F S1x256x128 .bf16 :=
  View.canon [⟨r1_q, k1_pay1 (k1_pay5 (View.ld x0 r1_q) (View.ld x1 r1_kv) (View.ld x2 r1_kv)) (k1_pay6 (View.ld x2 r1_kv))
    (k1_pay7 (View.ld x0 r1_q) (View.ld x1 r1_kv))⟩]

/-- The store is of the whole buffer, so it covers it. -/
theorem cover1_3 (p0 : Vec F S1x256x128 .bf16) (y : S1x256x128.Idx) :
    ∃ pc ∈ ([⟨r1_q, p0⟩] : List (View.Piece (Elt F) S1x256x128 .bf16)), y ∈ pc.1.set :=
  View.cover_of_tiled [⟨r1_q, p0⟩] S1x256x128.size (by rfl) y

/-! ## The body's triple -/

set_option maxHeartbeats 1000000 in
/-- The kernel body on whole staging memrefs, the inputs' at read contents `x0`, `x1`, `x2` and the output's at anything,
    runs to the continuation holding the inputs' as they were and the output's at `out1_3 x0 x1 x2`. -/
theorem sound_kernel1 (c : Dev nD) (E : Set ℕ) (i : grid1.Coords)
    (arg3 : Memref sig .tc .vmem S1x256x128 .bf16) (harg3 : arg3.IsWhole)
    (arg4 : Memref sig .tc .vmem S1x2048x128 .bf16) (harg4 : arg4.IsWhole)
    (arg5 : Memref sig .tc .vmem S1x2048x128 .bf16) (harg5 : arg5.IsWhole)
    (arg6 : Memref sig .tc .vmem S1x256x128 .bf16) (harg6 : arg6.IsWhole)
    (x0 : Vec F S1x256x128 .bf16) (x1 x2 : Vec F S1x2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The three shares the one projection array is read at, one per input window: two quarters and a half of the whole. -/
abbrev share1 : Fin cfg1.W → PosShare TreeShare := fun w => match w with
  | ⟨0, _⟩ => fullShare.left.left
  | ⟨1, _⟩ => fullShare.left.right
  | _ => fullShare.right

/-- The proof data of pipeline 1 on core `c`: the arrays as the region finds them; after the body at point `t`
    each input's buffer at its block and the output's at the body's result of the three input blocks; the invariant the
    scoped rest and the generator register, untouched; nothing owed; the shared array read at three shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := share1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KI.Reg1Arrays.lean ====
/-
  Region 1's arrays: its three input windows read ONE array, the fused projection, so the array's buffer, held whole
  when the region is entered, is split among them along the share — two quarters and a half — and put together again
  at the exit, where all three still hold the contents they were entered with (an input window's array is never
  written); the output window's array is a buffer of its own, held whole.
-/
import proofs.«102155_j63780264346209_2_alg».proof.Proof.KI.Reg1

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind region 1's arrays: the projection and the attention output. -/
theorem arrRefs1 : (Finset.univ.image (Pipeline.arrRef spec1)) = ({main_v6, main_v7} : Finset (Ref sig .tc)) := by decide

/-- The region's array conjunction, window by window, for any contents `G`. -/
theorem arrays1_chain (c : Dev nD) (G : (w : Fin cfg1.W) → Buf (Elt F) ((cfg1.win w).arr.view.loc (c.tc : Thread nD τ))) :
    ((dat1 V c).arrays G : sProp 𝕄)
      = iprop((((c : Thread nD τ).loc main_v6) ↦{fullShare.left.left} G 0) ∗ (((c : Thread nD τ).loc main_v6) ↦{fullShare.left.right} G 1)
          ∗ (((c : Thread nD τ).loc main_v6) ↦{fullShare.right} G 2) ∗ (((c : Thread nD τ).loc main_v7) ↦{fullShare} G 3)) := by
  unfold Dat.arrays
  rw [bigSep_W1, (arr_whole1 0).set_eq_univ, (arr_whole1 3).set_eq_univ]
  rfl

/-- The buffers behind the region's arrays, each whole at contents `V c`: the projection's and the output's. -/
theorem arrBufs1_eq (c : Dev nD) :
    (Pipeline.arrBufs (Ix := Unit) (Name := ℕ) (U := UR sig nD τ) (Lvl := ℕ) spec1 c (V c) : sProp 𝕄)
      = iprop((((c : Thread nD τ).loc main_v6) ↦{fullShare} V c main_v6) ∗ (((c : Thread nD τ).loc main_v7) ↦{fullShare} V c main_v7)) := by
  unfold Pipeline.arrBufs
  rw [arrRefs1, bigSep_insert (by decide), bigSep_singleton]
  rfl

/-- ENTRY: the two buffers, each whole at the entry contents, make the four windows' arrays. -/
theorem arrays1_entry (c : Dev nD) :
    (Pipeline.arrBufs (Ix := Unit) (Name := ℕ) (U := UR sig nD τ) (Lvl := ℕ) spec1 c (V c) : sProp 𝕄)
      ⊢ (dat1 V c).arrays (fun w => (dat1 V c).arrAt w 0) := by
  rw [arrays1_chain, arrBufs1_eq]
  iintro ⟨H6, H7⟩
  ihave H6' := (pointsTo_share (PosShare.mem_left_op_right fullShare)).1 $$ H6
  icases H6' with ⟨H6l, H6r⟩
  ihave H6l' := (pointsTo_share (PosShare.mem_left_op_right fullShare.left)).1 $$ H6l
  icases H6l' with ⟨H6ll, H6lr⟩
  isplitl [H6ll]; · iexact H6ll
  isplitl [H6lr]; · iexact H6lr
  isplitl [H6r]; · iexact H6r
  iexact H7

/-- An input window's array holds at the exit what it held at the entry. -/
theorem arrAt1_in (c : Dev nD) (n : Nat) :
    (dat1 V c).arrAt 0 n = V c main_v6 ∧ (dat1 V c).arrAt 1 n = V c main_v6 ∧ (dat1 V c).arrAt 2 n = V c main_v6 :=
  ⟨((dat1 V c).arrAt_in 0 rfl n).trans (A_eq1 V c 0), ((dat1 V c).arrAt_in 1 rfl n).trans (A_eq1 V c 1),
    ((dat1 V c).arrAt_in 2 rfl n).trans (A_eq1 V c 2)⟩

/-- EXIT: the four windows' arrays at their final contents make the two buffers whole again, the projection at
    its entry contents and the output at what the write-backs left. -/
theorem arrays1_exit (c : Dev nD) :
    ((dat1 V c).arrays (fun w => (dat1 V c).arrAt w cfg1.N) : sProp 𝕄)
      ⊢ iprop((((c : Thread nD τ).loc main_v6) ↦{fullShare} V c main_v6) ∗ (((c : Thread nD τ).loc main_v7) ↦{fullShare} (dat1 V c).arrAt 3 cfg1.N)) := by
  rw [arrays1_chain]
  obtain ⟨h0, h1, h2⟩ := arrAt1_in V c cfg1.N
  iintro ⟨H0, H1, H2, H3⟩
  isplitr [H3]
  swap; · iexact H3
  iapply (pointsTo_share (PosShare.mem_left_op_right fullShare)).2
  isplitl [H0 H1]
  · iapply (pointsTo_share (PosShare.mem_left_op_right fullShare.left)).2
    isplitl [H0]
    · rw [← h0]; iexact H0
    · rw [← h1]; iexact H1
  · rw [← h2]; iexact H2

end Cert.KernelIdeal.Frame

end
-- ==== Proof.KI.Reg2.lean ====
/-
  Region 2: a tiled matrix product. At grid point t the pipeline stages a block of rows of the left operand
  (window 0), the whole right operand (window 1, fetched once: its block index never moves) and the matching block of
  rows of the result (window 2). The body reads the two input buffers whole, forms the product, and stores it over
  the whole result buffer; what it read of the result buffer beforehand is not used. So after the body the result
  buffer holds the product of the two input blocks, whatever it held before, and the input buffers are as found.
-/
import proofs.«102155_j63780264346209_2_alg».proof.Proof.Gen.KernelIdeal.Launch
import proofs.«102155_j63780264346209_2_alg».proof.Proof.Gen.KernelIdeal.Skeleton
import proofs.«102155_j63780264346209_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: where it is not
    fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_in0 : Rect S1024x1024 := Rect.unit (s := S1024x1024) ![0, 0] S1024x1024.size inb_S1024x1024_S1024x1024_0_0
abbrev r2_in1 : Rect S1024x1024 := Rect.unit (s := S1024x1024) ![0, 0] S1024x1024.size inb_S1024x1024_S1024x1024_0_0
abbrev r2_out : Rect S1024x1024 := Rect.unit (s := S1024x1024) ![0, 0] S1024x1024.size inb_S1024x1024_S1024x1024_0_0

/-! ## What the body leaves in the result window's buffer -/

/-- The result buffer after the body: its one store, of the product of what the two loads read. -/
def out2_2 (x0 : Vec F S1024x1024 .bf16) (x1 : Vec F S1024x1024 .bf16) : Vec F S1024x1024 .f32 :=
  View.canon [⟨r2_out, k2_pay1 (View.ld x0 r2_in0) (View.ld x1 r2_in1)⟩]

/-- The store is of the whole buffer, so it covers it. -/
theorem cover2_2 (p0 : Vec F S1024x1024 .f32) (y : S1024x1024.Idx) :
    ∃ pc ∈ ([⟨r2_out, p0⟩] : List (View.Piece (Elt F) S1024x1024 .f32)), y ∈ pc.1.set :=
  View.cover_of_tiled [⟨r2_out, p0⟩] S1024x1024.size (by rfl) y

/-! ## The body's triple -/

set_option maxHeartbeats 1000000 in
/-- The kernel body on whole staging memrefs, the inputs' at read contents `x0`, `x1` and the result's at anything, runs to
    the continuation holding the inputs' as they were and the result's at `out2_2 x0 x1`. -/
theorem sound_kernel2 (c : Dev nD) (E : Set ℕ) (i : grid2.Coords)
    (arg1 : Memref sig .tc .vmem S1024x1024 .bf16) (harg1 : arg1.IsWhole)
    (arg2 : Memref sig .tc .vmem S1024x1024 .bf16) (harg2 : arg2.IsWhole)
    (arg3 : Memref sig .tc .vmem S1024x1024 .f32) (harg3 : arg3.IsWhole)
    (x0 : Vec F S1024x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them; after the body at point `t`
    each input's buffer at its block and the result's at the product of the two input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KI.Run.lean ====
/-
  The run of @main: four stretches of host operations around the three regions. Between two items a core's
  unscoped buffers hold a valuation folded from the launch memory: a host stretch applies its operations, a region
  replaces its output array by what its write-backs leave and changes nothing else. Every weakly fair execution
  terminates without a fault, and at the end every unscoped buffer holds the last valuation; in particular the three
  argument arrays, which nothing writes, hold what they were launched with.
-/
import proofs.«102155_j63780264346209_2_alg».proof.Proof.KI.Reg0
import proofs.«102155_j63780264346209_2_alg».proof.Proof.KI.Reg1Arrays
import proofs.«102155_j63780264346209_2_alg».proof.Proof.KI.Reg2

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the first host stretch (the weights transposed and rounded, the input flattened): region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its result array at what the write-backs leave, everything else as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the projection reshaped to batch × row × column): region 1's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit: the attention output at what the write-backs leave, everything else — the projection its
    three input windows read included — as entered. -/
def W4 (c : Dev nD) : Valuation τ sig (Elt F) :=
  Function.update (W3 m c) (Proc.devRef .tc main_v7) ((dat1 (V3 m) c).arrAt 3 cfg1.N)
theorem W4_out (c : Dev nD) : W4 m c (Proc.devRef .tc main_v7) = (dat1 (V3 m) c).arrAt 3 cfg1.N := by
  unfold W4; exact Function.update_self ..
theorem W4_of_ne (c : Dev nD) (b : Ref sig .tc) (hb : b ≠ main_v7) :
    W4 m c (Proc.devRef .tc b) = W3 m c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m c b

/-- After the third host stretch (the attention output flattened): region 2's entry. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- After the last host stretch (the result reshaped to batch × row × column): the end. -/
abbrev W7 : Dev nD → Valuation τ sig (Elt F) := fun c => StableHlo.after hostOps3 (W6 m c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last valuation, the generator register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What region 1 leaves: the rest as entered, the projection whole again, the attention output at the write-backs'. -/
theorem exit1_bufs (c : Dev nD) :
    iprop((((c : Thread nD τ).loc main_v6) ↦{fullShare} V3 m c main_v6) ∗ (((c : Thread nD τ).loc main_v7) ↦{fullShare} (dat1 (V3 m) c).arrAt 3 cfg1.N)
        ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := by
  rw [← Pipeline.unscopedBufs_held (Ix := Unit) (Name := ℕ) (U := UR sig nD τ) (Lvl := ℕ) c (W4 m c),
    Pipeline.unscopedBufs_split₀ cfgs 1 winFacts₀1.arr_unscoped c (V4 m c)]
  show _ ⊢ iprop(Pipeline.arrBufs spec1 c (V4 m c) ∗ Pipeline.unscopedRest spec1 c (V4 m c))
  rw [arrBufs1_eq (V4 m) c]
  unfold Pipeline.unscopedRest
  iintro ⟨H6, H7, Hrest⟩
  isplitl [H6 H7]
  · isplitl [H6]
    · rw [show V4 m c main_v6 = V3 m c main_v6 from W4_of_ne m c main_v6 (by decide)]; iexact H6
    · rw [show V4 m c main_v7 = (dat1 (V3 m) c).arrAt 3 cfg1.N from W4_out m c]; iexact H7
  · iapply (Entails.of_eq (bigSep_congr fun b hb => by
      rw [show V4 m c b = V3 m c b from W4_of_ne m c b (fun e => (Finset.mem_sdiff.mp hb).2 (by rw [e, arrRefs1]; decide))]))
    iexact Hrest

set_option backward.isDefEq.respectTransparency.types false in
/-- Region 1 over the thread state: entered from every unscoped buffer at `W3`, left at `W4`; the projection's buffer
    split among its three input windows at the entry and put together at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (StableHlo.held (c : Thread nD τ) (Pipeline.ucRefs τ sig) (W3 m c) : sProp 𝕄)
        ⊢ iprop(Pipeline.arrBufs spec1 c (V3 m c) ∗ Pipeline.unscopedRest spec1 c (V3 m c)) := by
      rw [← Pipeline.unscopedBufs_held (Ix := Unit) (Name := ℕ) (U := UR sig nD τ) (Lvl := ℕ) c (W3 m c),
        Pipeline.unscopedBufs_split₀ cfgs 1 winFacts₀1.arr_unscoped c (V3 m c)]
      exact .rfl
    iintro ⟨⟨Hub, Hp, HO⟩, -, -⟩
    ihave H := hsplit $$ Hub
    icases H with ⟨Ha, Hrest⟩
    ihave Ha' := (arrays1_entry (V3 m) c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hx : ((pdats m 1 c).arrays (fun x => (pdats m 1 c).arrAt x (Pipeline.pin (pcfgs (F := F)) adm 1).N) : sProp 𝕄)
        ⊢ iprop((((c : Thread nD τ).loc main_v6) ↦{fullShare} V3 m c main_v6) ∗ (((c : Thread nD τ).loc main_v7) ↦{fullShare} (dat1 (V3 m) c).arrAt 3 cfg1.N)) :=
      arrays1_exit (V3 m) c
    iintro ⟨Ha, HO, HY, Hrest⟩
    ihave Ha' := hx $$ Ha
    icases Ha' with ⟨H6, H7⟩
    imodintro
    isplitl [H6 H7 Hrest]
    · iapply (exit1_bufs m c)
      isplitl [H6]; · iexact H6
      isplitl [H7]; · iexact H7
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m),
    .host (hseg hostOps2 hostOps2_sub hostOps2_fresh' (W4 m)),
    .region (reg2 m),
    .host (hseg hostOps3 hostOps3_sub hostOps3_fresh' (W6 m)) ]
theorem main_run (c : Dev nD) : main (F := F) c = Pipeline.Seg.run (segs m) := (main_chain c).trans (by chain_rfl)

set_option backward.isDefEq.respectTransparency.types false in
/-- THE RUN: from any memory with zero counters, every weakly fair execution of @main on the TensorCores terminates,
    nothing faulting, and in every final state every unscoped buffer of every core holds the last valuation `W7`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => (show iprop(StableHlo.held (c : Thread nD τ) (Pipeline.ucRefs τ sig) (W7 m c) ∗ R c)
          ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.KernelIdeal.Frame

end
-- ==== Proof.KI.Frame.lean ====
/-
  The frame: the three argument arrays end as launched. No host operation writes an argument and no region has one
  among its arrays, so the fold of valuations, read at an argument's buffer, walks back to the launch memory.
-/
import proofs.«102155_j63780264346209_2_alg».proof.Proof.KI.Run
import proofs.«102155_j63780264346209_2_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-! ## What each item leaves unchanged -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h
theorem W7_of (c : Dev nD) (r : Ref sig .tc) (h : r ∉ hostOps3_W) : W7 m c r = W6 m c r :=
  StableHlo.after_of_writes_sub hostOps3 _ hostOps3_writes h

/-- A buffer that no host stretch writes and that is no region's array holds at the end what it held at launch. -/
theorem W7_untouched (c : Dev nD) (r : Ref sig .tc) (h0 : r ∉ hostOps0_W) (h1 : r ∉ hostOps1_W) (h2 : r ∉ hostOps2_W) (h3 : r ∉ hostOps3_W)
    (a0 : ∀ w, Pipeline.arrRef spec0 w ≠ r) (a1 : r ≠ main_v7) (a2 : ∀ w, Pipeline.arrRef spec2 w ≠ r) :
    W7 m c r = m ((c : Thread nD τ).loc r) :=
  (W7_of m c r h3).trans <| (W6_of_ne m c r a2).trans <| (W5_of m c r h2).trans <| (W4_of_ne m c r a1).trans <|
    (W3_of m c r h1).trans <| (W2_of_ne m c r a0).trans <| (W1_of m c r h0).trans rfl

theorem W7_main_arg0 (c : Dev nD) : W7 m c main_arg0 = m ((c : Thread nD τ).loc main_arg0) :=
  W7_untouched m c main_arg0 (by decide) (by decide) (by decide) (by decide) (by decide) (by decide) (by decide)
theorem W7_main_arg1 (c : Dev nD) : W7 m c main_arg1 = m ((c : Thread nD τ).loc main_arg1) :=
  W7_untouched m c main_arg1 (by decide) (by decide) (by decide) (by decide) (by decide) (by decide) (by decide)
theorem W7_main_arg2 (c : Dev nD) : W7 m c main_arg2 = m ((c : Thread nD τ).loc main_arg2) :=
  W7_untouched m c main_arg2 (by decide) (by decide) (by decide) (by decide) (by decide) (by decide) (by decide)

/-- THE FRAME, at any instance: every weakly fair execution terminates without a fault, the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c)⟩) (run_main m ρ)

end Cert.KernelIdeal.Frame

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.PayMatmul.lean ====
/-
  The two projection kernels' stored values at an entry.

  Each of the two kernels stores a matrix product into a zero accumulator; the casts between the float formats
  are the identity on the extended reals, and the shape casts are between equal shapes.  So entry (r, e) of what is
  stored is the sum over d of lhs(r, d) * rhs(d, e).
-/
import proofs.«102155_j63780264346209_2_alg».proof.Proof.Gen.KernelIdeal.Skeleton
import proofs.«102155_j63780264346209_2_alg».proof.Proof.LibMatmul
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-- The first kernel's stored block: rows of the input times the (already transposed) fused weight block. -/
theorem k0_pay1_apply (v0 : Vec Ideal S512x1024 .f32) (v3 : Vec Ideal S1024x3072 .bf16) (r : Fin 512) (e : Fin 3072) :
    k0_pay1 (F := Ideal) v0 v3 (ix2 r e) = ∑ d : Fin 1024, v0 (ix2 r d) * v3 (ix2 d e) := by
  unfold k0_pay1
  simp only [shapeCast_self]
  exact Cert.MatmulAt.matmul_zero_plain_apply (φ₁ := .bf16) (φ₂ := .bf16)
    Facts₀.dot_S512x1024_S1024x3072_S512x3072_1_0_0_1_n_n_wf none (truncf .bf16 v0 Facts₀.bitsLt_bf16_f32) v3 r e

/-- The last kernel's stored block: rows of the attention output times the (already transposed) output weight. -/
theorem k2_pay1_apply (v0 v2 : Vec Ideal S1024x1024 .bf16) (r e : Fin 1024) :
    k2_pay1 (F := Ideal) v0 v2 (ix2 r e) = ∑ d : Fin 1024, v0 (ix2 r d) * v2 (ix2 d e) := by
  unfold k2_pay1
  simp only [shapeCast_self]
  exact Cert.MatmulAt.matmul_zero_plain_apply (φ₁ := .bf16) (φ₂ := .bf16)
    Facts₀.dot_S1024x1024_S1024x1024_S1024x1024_1_0_0_1_n_n_wf none v0 v2 r e

end Cert.KernelIdeal.Pay

end
-- ==== Proof.KI.Val0.lean ====
/-
  Region 0, from blocks to the array.

  At grid point t the region's body leaves in the result window's buffer the product of rows 512 t .. 512 t + 511 of
  the left array with the whole right array, and the pipeline writes that buffer back over rows 512 t .. 512 t + 511
  of the result array.  The sixteen points' row blocks tile the 8192 rows, so after the region the result array holds,
  at row p and column q, the sum over d of the left array at (p, d) times the right array at (d, q).
-/
import proofs.«102155_j63780264346209_2_alg».proof.Proof.KI.Reg0
import proofs.«102155_j63780264346209_2_alg».proof.Proof.PayMatmul
import Idealize.ShloMosaic.Lib.Pipeline.Value

set_option maxRecDepth 16384

noncomputable section

open scoped BigOperators

namespace Cert.KernelIdeal.Frame

open Cert.KernelIdeal Cert.KernelIdeal.Gen
open Idealize.ShloMosaic Idealize.ShloMosaic.TcCoe Idealize.ShloMosaic.ValueIdx
open Idealize.SL.Sem
open Idealize.ShloMosaic.Pipeline (Dat Cfg Window)

-- the TensorCore's buffer contents when the region is entered, at the extended reals
variable (V : (c : Dev nD) → (b : Ref sig .tc) → Buf (Elt Ideal) ((c : Thread nD τ).loc b))

theorem hz0 : (![0, 0] : Fin 2 → Nat) = fun _ => 0 := funext fun a => by fin_cases a <;> rfl

/-- The product of an 8192 x 1024 array with a 1024 x 3072 array, entry by entry. -/
def G0 (A : S8192x1024.Idx → EReal) (B : S1024x3072.Idx → EReal) : S8192x3072.Idx → EReal := fun i =>
  ∑ d : Fin 1024, A (ix2 (⟨(i 0).val, (i 0).isLt⟩ : Fin 8192) d) * B (ix2 d (⟨(i 1).val, (i 1).isLt⟩ : Fin 3072))

/-- The body's stored block at any index of the block. -/
theorem pay0_at (v0 : Vec Ideal S512x1024 .f32) (v3 : Vec Ideal S1024x3072 .bf16) (y : S512x3072.Idx) :
    k0_pay1 (F := Ideal) v0 v3 y
      = ∑ d : Fin 1024, v0 (ix2 (⟨(y 0).val, (y 0).isLt⟩ : Fin 512) d) * v3 (ix2 d (⟨(y 1).val, (y 1).isLt⟩ : Fin 3072)) := by
  obtain ⟨r, e, rfl⟩ : ∃ (r : Fin 512) (e : Fin 3072), y = ix2 r e := ⟨y 0, y 1, eq_ix2 y⟩
  exact Cert.KernelIdeal.Pay.k0_pay1_apply v0 v3 r e

/-- The printed index maps over the sixteen points: the left and result windows are at row block t, column block 0;
    the right window is at block (0, 0) throughout. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 512 t .. of the left array. -/
theorem iblk0_0_apply (c : Dev nD) (t : Fin cfg0.N) (x : S512x1024.Idx) (k : S8192x1024.Idx)
    (hk0 : (k 0).val = 512 * t.val + (x 0).val) (hk1 : (k 1).val = (x 1).val) :
    (iblk0 V c 0 t : Vec Ideal S512x1024 .f32) x = (V c main_v4 : S8192x1024.Idx → EReal) k := by
  obtain ⟨e0, e1, -, -, -, -⟩ := idx_facts0 t
  unfold iblk0
  rw [View.read_apply]
  show V c main_v4 _ = V c main_v4 _
  congr 1
  funext a
  apply Fin.ext
  match a with
  | ⟨0, _⟩ => show win0_0.index t 0 * 512 + 1 * (x 0).val = (k 0).val; rw [e0, hk0]; omega
  | ⟨1, _⟩ => show win0_0.index t 1 * 1024 + 1 * (x 1).val = (k 1).val; rw [e1, hk1]; omega

/-- The right window's block at every point is the whole right array. -/
theorem iblk0_1_apply (c : Dev nD) (t : Fin cfg0.N) (x : S1024x3072.Idx) :
    (iblk0 V c 1 t : Vec Ideal S1024x3072 .bf16) x = (V c main_v1 : S1024x3072.Idx → EReal) x := by
  obtain ⟨-, -, e2, e3, -, -⟩ := idx_facts0 t
  unfold iblk0
  rw [View.read_apply]
  show V c main_v1 _ = V c main_v1 _
  congr 1
  funext a
  apply Fin.ext
  match a with
  | ⟨0, _⟩ => show win0_1.index t 0 * 1024 + 1 * (x 0).val = (x 0).val; rw [e2]; omega
  | ⟨1, _⟩ => show win0_1.index t 1 * 3072 + 1 * (x 1).val = (x 1).val; rw [e3]; omega

/-- What point t writes back is block t of the product of the arrays as the region finds them. -/
theorem flushed0_eq (c : Dev nD) (t : Fin cfg0.N) :
    (dat0 (F := Ideal) V c).flushed 2 t
      = ((cfg0.win 2).blk t).view.read (Elt Ideal) (G0 (V c main_v4) (V c main_v1)) := by
  show (cfg0.win 2).cut (grid0.coords t) ((dat0 (F := Ideal) V c).after 2 t) = _
  rw [after0_2]
  unfold out0_2
  rw [View.canon_unit_zero hz0]
  simp only [View.ld_unit_zero (S := S512x1024) hz0, View.ld_unit_zero (S := S1024x3072) hz0]
  obtain ⟨-, -, -, -, e4, e5⟩ := idx_facts0 t
  funext j
  rw [View.read_apply]
  show k0_pay1 (F := Ideal) (iblk0 V c 0 t) (iblk0 V c 1 t) ((cfg0.win 2).xinj (grid0.coords t) j)
    = G0 (V c main_v4) (V c main_v1) (((cfg0.win 2).blk t).view.emb j)
  refine (pay0_at _ _ _).trans ?_
  unfold G0
  have hj0 : (j 0).val < 512 := (j 0).isLt
  have hj1 : (j 1).val < 3072 := (j 1).isLt
  have h0 : ((((cfg0.win 2).blk t).view.emb j) 0).val = win0_2.index t (0 : Fin 2) * 512 + 1 * (j 0).val := rfl
  have h1 : ((((cfg0.win 2).blk t).view.emb j) 1).val = win0_2.index t (1 : Fin 2) * 3072 + 1 * (j 1).val := rfl
  refine Finset.sum_congr rfl fun d _ => ?_
  refine congrArg₂ (· * ·) ?_ ?_
  · refine iblk0_0_apply V c t _ _ ?_ ?_
    · show ((((cfg0.win 2).blk t).view.emb j) 0).val = 512 * t.val + (j 0).val
      rw [h0, e4]; omega
    · rfl
  · refine (iblk0_1_apply V c t _).trans (congrArg (V c main_v1 : S1024x3072.Idx → EReal) ?_)
    funext a
    apply Fin.ext
    match a with
    | ⟨0, _⟩ => rfl
    | ⟨1, _⟩ =>
      show (j 1).val = ((((cfg0.win 2).blk t).view.emb j) 1).val
      rw [h1, e5]; omega

/-- An index of the result array is in point t's block iff each coordinate is in the block's range on its axis. -/
theorem mem_blk0 (t : Fin cfg0.N) (i : S8192x3072.Idx) :
    i ∈ ((cfg0.win 2).blk t).view.set ↔ ∀ a : Fin 2, win0_2.index t a * S512x3072.size a ≤ (i a).val
      ∧ (i a).val < win0_2.index t a * S512x3072.size a + S512x3072.size a := by
  show i ∈ ((View.whole main_v5).slice (win0_2.rect t)).set ↔ _
  rw [View.set_slice_whole, Rect.mem_set_unit]
  exact Iff.rfl

/-- Every index of the result array is in the block of the point its row falls to. -/
theorem cover0 (i : S8192x3072.Idx) :
    ∃ t : Fin cfg0.N, (cfg0.win 2).flush t = true ∧ i ∈ ((cfg0.win 2).blk t).view.set := by
  have hi0 : (i 0).val < 8192 := (i 0).isLt
  have hi1 : (i 1).val < 3072 := (i 1).isLt
  let t : Fin cfg0.N := (⟨(i 0).val / 512, by show (i 0).val / 512 < 16; omega⟩ : Fin 16)
  have ht : t.val = (i 0).val / 512 := rfl
  obtain ⟨-, -, -, -, e4, e5⟩ := idx_facts0 t
  refine ⟨t, flush0_2 t, ?_⟩
  rw [mem_blk0]
  intro a
  match a with
  | ⟨0, _⟩ =>
    show win0_2.index t (0 : Fin 2) * 512 ≤ (i 0).val ∧ (i 0).val < win0_2.index t (0 : Fin 2) * 512 + 512
    rw [e4, ht]; omega
  | ⟨1, _⟩ =>
    show win0_2.index t (1 : Fin 2) * 3072 ≤ (i 1).val ∧ (i 1).val < win0_2.index t (1 : Fin 2) * 3072 + 3072
    rw [e5]; omega

/-- After the region the result array is the product of the left and right arrays as the region found them. -/
theorem final0 (c : Dev nD) :
    (dat0 (F := Ideal) V c).arrAt 2 cfg0.N = G0 (V c main_v4) (V c main_v1) :=
  (dat0 (F := Ideal) V c).arrAt_eq_of_cover 2 (G0 (V c main_v4) (V c main_v1)) (fun t _ => flushed0_eq V c t) cover0

end Cert.KernelIdeal.Frame

end
-- ==== Proof.Spec.lean ====
/-
  The mathematics both programs compute, as functions of the three argument arrays over the extended reals.

  Multi-head softmax attention with a fused projection: from x[b,s,d] (4 × 2048 × 1024), W_qkv[e,d] (3072 × 1024)
  and W_o[e,d] (1024 × 1024),
    T[b,s,e]   = Σ_d x[b,s,d] · W_qkv[e,d]                      (one projection: queries, keys, values side by side)
    for head h (16 of them, 64 columns each): queries are columns h·64+j of T, keys columns 1024+h·64+j,
    values columns 2048+h·64+j;
    S[b,h,q,k] = (Σ_j T[b,q,h·64+j] · T[b,k,1024+h·64+j]) · (1/8)   (1/8 = 1/√64)
    M[b,h,q]   = max_k S[b,h,q,k]   (the fold of max from -∞)
    P[b,h,q,k] = exp (S[b,h,q,k] − M[b,h,q]),   L[b,h,q] = Σ_k P[b,h,q,k]
    O[b,q,h·64+j] = Σ_k (P[b,h,q,k] / L[b,h,q]) · T[b,k,2048+h·64+j]
    Y[b,s,e]   = Σ_d O[b,s,d] · W_o[e,d].
  Every sum is a finite sum in the extended reals (commutative and associative there), so the order in which a
  program adds is immaterial; no law used below needs the entries to be finite.
-/
import Idealize.ShloMosaic.PureOps.Ideal
import Idealize.ShloMosaic.Lib.ValueIdx

noncomputable section

open scoped BigOperators

namespace Cert.Mha

open Idealize.ShloMosaic Idealize.ShloMosaic.ValueIdx

/-- The three argument shapes and the result's. -/
abbrev SX : Shape := ⟨3, ![4, 2048, 1024]⟩
abbrev SWqkv : Shape := ⟨2, ![3072, 1024]⟩
abbrev SWo : Shape := ⟨2, ![1024, 1024]⟩

/-- Column of head `h`'s `j`-th query, key and value coordinate in the fused projection. -/
def qcol (h : Fin 16) (j : Fin 64) : Fin 3072 := ⟨h.val * 64 + j.val, by omega⟩
def kcol (h : Fin 16) (j : Fin 64) : Fin 3072 := ⟨1024 + (h.val * 64 + j.val), by omega⟩
def vcol (h : Fin 16) (j : Fin 64) : Fin 3072 := ⟨2048 + (h.val * 64 + j.val), by omega⟩
/-- Column of head `h`'s `j`-th coordinate in the attention output. -/
def ocol (h : Fin 16) (j : Fin 64) : Fin 1024 := ⟨h.val * 64 + j.val, by omega⟩

/-- The fused projection `T[b,s,e] = Σ_d x[b,s,d] · W_qkv[e,d]`. -/
def proj (x : SX.Idx → EReal) (w : SWqkv.Idx → EReal) (b : Fin 4) (s : Fin 2048) (e : Fin 3072) : EReal :=
  ∑ d : Fin 1024, x (ix3 b s d) * w (ix2 e d)

/-- The scaled scores of head `h` in batch `b`: query row `q` against key row `k`, times `1/8`. -/
def score (T : Fin 4 → Fin 2048 → Fin 3072 → EReal) (b : Fin 4) (h : Fin 16) (q k : Fin 2048) : EReal :=
  (∑ j : Fin 64, T b q (qcol h j) * T b k (kcol h j)) * ((1 / 8 : ℝ) : EReal)

/-- A row's maximum: the fold of `max` from `-∞`. -/
def rowMax (S : Fin 2048 → EReal) : EReal := (Finset.univ : Finset (Fin 2048)).fold max ⊥ S

/-- A row's unnormalised softmax weights and their sum. -/
def expo (S : Fin 2048 → EReal) (k : Fin 2048) : EReal := Ideal.exp (S k - rowMax S)
def denom (S : Fin 2048 → EReal) : EReal := ∑ k : Fin 2048, expo S k

/-- The softmax weight of key `k` in a row of scores. -/
def weight (S : Fin 2048 → EReal) (k : Fin 2048) : EReal := Ideal.div (expo S k) (denom S)

/-- The attention output of head `h`: the weighted sum of the head's value rows. -/
def head (T : Fin 4 → Fin 2048 → Fin 3072 → EReal) (b : Fin 4) (h : Fin 16) (q : Fin 2048) (j : Fin 64) : EReal :=
  ∑ k : Fin 2048, weight (score T b h q) k * T b k (vcol h j)

/-- The attention output as one array `O[b,s,c]`, the heads side by side: column `c` is head `c / 64`, coordinate `c % 64`. -/
def attn (T : Fin 4 → Fin 2048 → Fin 3072 → EReal) (b : Fin 4) (s : Fin 2048) (c : Fin 1024) : EReal :=
  head T b ⟨c.val / 64, by omega⟩ s ⟨c.val % 64, Nat.mod_lt _ (by norm_num)⟩

/-- The output projection `Y[b,s,e] = Σ_d O[b,s,d] · W_o[e,d]`. -/
def outProj (O : Fin 4 → Fin 2048 → Fin 1024 → EReal) (wo : SWo.Idx → EReal) (b : Fin 4) (s : Fin 2048) (e : Fin 1024) : EReal :=
  ∑ d : Fin 1024, O b s d * wo (ix2 e d)

/-- The whole result as an array over the result's index set. -/
def mha (x : SX.Idx → EReal) (w : SWqkv.Idx → EReal) (wo : SWo.Idx → EReal) : SX.Idx → EReal :=
  fun i => outProj (attn (proj x w)) wo (i 0) (i 1) (i 2)

end Cert.Mha

end
-- ==== Proof.KI.ValueA.lean ====
/-
  The idealized kernel's values, stage by stage, at the extended reals.
  The first host stretch transposes the two weight arrays (a change of format is the identity here) and flattens
  the input to 8192 rows; region 0 multiplies, so its result at row b·2048+s, column e is Σ_d x[b,s,d]·W_qkv[e,d];
  reshaped to batch × row × column this is the fused projection of the specification.
-/
import proofs.«102155_j63780264346209_2_alg».proof.Proof.KI.Frame
import proofs.«102155_j63780264346209_2_alg».proof.Proof.KI.Val0
import proofs.«102155_j63780264346209_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-! ## The first host stretch -/

/-- The flattened input. -/
theorem V1_v4 (c : Dev nD) : (V1 m c main_v4 : S8192x1024.Idx → EReal)
    = shapeCast S8192x1024 (m ((c : Thread nD τ).loc main_arg0) : S4x2048x1024.Idx → EReal) shapeCasts_S4x2048x1024_S8192x1024 := by
  show StableHlo.after hostOps0 (W0 m c) (Proc.devRef .tc main_v4) = _
  after_results
  rfl
/-- The transposed projection weights. -/
theorem V1_v1 (c : Dev nD) : (V1 m c main_v1 : S1024x3072.Idx → EReal)
    = transpose S1024x3072 [1, 0] (m ((c : Thread nD τ).loc main_arg1) : S3072x1024.Idx → EReal) transposes_S3072x1024_S1024x3072_1_0 := by
  show StableHlo.after hostOps0 (W0 m c) (Proc.devRef .tc main_v1) = _
  after_results
  rfl
/-- The transposed output weights. -/
theorem V1_v3 (c : Dev nD) : (V1 m c main_v3 : S1024x1024.Idx → EReal)
    = transpose S1024x1024 [1, 0] (m ((c : Thread nD τ).loc main_arg2) : S1024x1024.Idx → EReal) transposes_S1024x1024_S1024x1024_1_0 := by
  show StableHlo.after hostOps0 (W0 m c) (Proc.devRef .tc main_v3) = _
  after_results
  rfl

/-- Row b·2048+s of the flattened input is row (b, s) of the input. -/
theorem V1_v4_apply (c : Dev nD) (b : Fin 4) (s : Fin 2048) (d : Fin 1024) :
    V1 m c main_v4 (ix2 (⟨b.val * 2048 + s.val, by omega⟩ : Fin 8192) d) = m ((c : Thread nD τ).loc main_arg0) (ix3 b s d) :=
  (congrFun (V1_v4 m c) _).trans (shapeCast_apply _ _ _ (ix3 b s d) (by
    rw [Shape.rowMajor_val_two, Shape.rowMajor_val_three]; rfl))
/-- The transposed weights read at (d, e) are the weights at (e, d). -/
theorem V1_v1_apply (c : Dev nD) (d : Fin 1024) (e : Fin 3072) :
    V1 m c main_v1 (ix2 d e) = m ((c : Thread nD τ).loc main_arg1) (ix2 e d) :=
  (congrFun (V1_v1 m c) _).trans (transpose_apply _ _ _ _ (ix2 e d) (fun b => by
    match b with
    | ⟨0, _⟩ => rfl
    | ⟨1, _⟩ => rfl))
theorem V1_v3_apply (c : Dev nD) (d e : Fin 1024) :
    V1 m c main_v3 (ix2 d e) = m ((c : Thread nD τ).loc main_arg2) (ix2 e d) :=
  (congrFun (V1_v3 m c) _).trans (transpose_apply _ _ _ _ (ix2 e d) (fun b => by
    match b with
    | ⟨0, _⟩ => rfl
    | ⟨1, _⟩ => rfl))

/-! ## Region 0 and the second host stretch: the fused projection -/

/-- Region 0's result array: the product of the flattened input and the transposed weights. -/
theorem V2_v5 (c : Dev nD) : (V2 m c main_v5 : S8192x3072.Idx → EReal) = G0 (V1 m c main_v4) (V1 m c main_v1) :=
  (W2_arr m c 2).trans (final0 (V1 m) c)

/-- The projection reshaped to batch × row × column. -/
theorem V3_v6 (c : Dev nD) : (V3 m c main_v6 : S4x2048x3072.Idx → EReal)
    = shapeCast S4x2048x3072 (V2 m c main_v5 : S8192x3072.Idx → EReal) shapeCasts_S8192x3072_S4x2048x3072 := by
  show StableHlo.after hostOps1 (W2 m c) (Proc.devRef .tc main_v6) = _
  after_results
  rfl

/-- THE PROJECTION: what region 1 reads is the specification's fused projection of the arguments. -/
theorem V3_v6_apply (c : Dev nD) (b : Fin 4) (s : Fin 2048) (e : Fin 3072) :
    V3 m c main_v6 (ix3 b s e)
      = Cert.Mha.proj (m ((c : Thread nD τ).loc main_arg0)) (m ((c : Thread nD τ).loc main_arg1)) b s e := by
  refine (congrFun (V3_v6 m c) _).trans ?_
  refine (shapeCast_apply _ _ _ (ix2 (⟨b.val * 2048 + s.val, by omega⟩ : Fin 8192) e) (by
    rw [Shape.rowMajor_val_two, Shape.rowMajor_val_three]; rfl)).trans ?_
  rw [V2_v5]
  show (G0 (V1 m c main_v4) (V1 m c main_v1) (ix2 (⟨b.val * 2048 + s.val, by omega⟩ : Fin 8192) e) : EReal)
    = (Cert.Mha.proj (m ((c : Thread nD τ).loc main_arg0)) (m ((c : Thread nD τ).loc main_arg1)) b s e : EReal)
  unfold G0 Cert.Mha.proj
  refine Finset.sum_congr rfl fun d _ => ?_
  exact congrArg₂ (· * ·) (V1_v4_apply m c b s d) (V1_v1_apply m c d e)

end Cert.KernelIdeal.Frame

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.LibColumnCasts.lean ====
/-
  Shape casts between a vector and the column that holds it, read at an index given by coordinates.

  A vector of `a` entries and an `a` by 1 column list the same entries in the same row-major order, so a cast either
  way reads entry `i` of the one at row `i` of the other; likewise a scalar and a 1 by 1 array hold one entry.  These
  are the "keepdims" forms a row sum meets when its result is kept as a column: the vector-to-column cast after the
  sum, the column-to-vector cast when the column is handed back as a vector, and the scalar-to-array cast of a total.
  Also here: the sum over a vector's indices as the sum over its coordinates, and a lane sum over the second axis of a
  matrix at the ideal values, as the plain sum over the columns of one row.
-/
import Idealize.ShloMosaic.Lib.Pipeline.Value
import Idealize.ShloMosaic.Lib.ValueIdx
import Idealize.ShloMosaic.PureOps.Ideal.Laws

namespace Cert.ColumnCasts

open Idealize.ShloMosaic Idealize.ShloMosaic.ValueIdx
open scoped BigOperators

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A scalar (rank 0) cast to a `[1, 1]` array reads, at its one index, the scalar: a rank-0 shape has one index. -/
theorem shapeCast_scalar_11_apply (x : (⟨0, ![]⟩ : Shape).Idx → α) (h : (⟨0, ![]⟩ : Shape).ShapeCasts ⟨2, ![1, 1]⟩)
    (j : (⟨2, ![1, 1]⟩ : Shape).Idx) : shapeCast ⟨2, ![1, 1]⟩ x h j = x ix0 :=
  congrArg x (funext fun d => d.elim0)

/-- The indices of a vector of `n` entries are its coordinates. -/
def vectorIdxEquiv {n : ℕ} : (⟨1, ![n]⟩ : Shape).Idx ≃ Fin n where
  toFun i := i 0
  invFun := ix1
  left_inv i := (eq_ix1 i).symm
  right_inv _ := rfl

/-- A sum over the indices of a vector is the sum over its coordinates. -/
theorem sum_vectorIdx {M : Type} [AddCommMonoid M] {n : ℕ} (f : (⟨1, ![n]⟩ : Shape).Idx → M) :
    ∑ i, f i = ∑ o : Fin n, f (ix1 o) :=
  (Equiv.sum_comp (vectorIdxEquiv (n := n)).symm f).symm

/-- At the ideal values the lane sum of an `[a, b]` matrix over its second axis is, at row `p`, the sum over the
    columns `k` of the entry `(p, k)`.  The accumulator is the zero word, which is the neutral element of the sum. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun d => Fin.ext (by
      match d with
      | ⟨0, _⟩ => rfl
      | ⟨1, _⟩ => rfl)))

end Cert.ColumnCasts
-- ==== Proof.PayConst.lean ====
/-
  The two float literals the attention kernel spells, as the extended reals their words denote:
  the scale 0.125 = 1/8 = 1/sqrt 64, and the maximum's starting value, minus infinity.
-/
import Idealize.ShloMosaic.PureOps.Ideal

noncomputable section

namespace Cert.KernelIdeal.Pay

open Idealize.ShloMosaic

/-- The word 0x3E000000 is 0.125: the real 1/8. -/
theorem ofBits_eighth : Ideal.ofBits .f32 0x3E000000#32 = ((1 / 8 : ℝ) : EReal) := by
  simp [Ideal.ofBits, Ideal.ieee, -EReal.coe_mul]; norm_num

/-- The word 0xFF800000 is minus infinity, the bottom of the extended reals. -/
theorem ofBits_negInf : Ideal.ofBits .f32 0xFF800000#32 = ⊥ := by
  simp [Ideal.ofBits, Ideal.ieee]

end Cert.KernelIdeal.Pay

end
-- ==== Proof.PaySoftmax.lean ====
/-
  A row-wise softmax of a 256 x 2048 matrix, read at an entry.

  The attention kernel takes, for each row of a score matrix, the maximum over the row (a fold of max from minus
  infinity), keeps it as a column and spreads it back along the row, subtracts, exponentiates, sums each row (kept as a
  column and spread back the same way) and divides.  At entry (r, k) that is the softmax weight of key k in row r.
-/
import proofs.«102155_j63780264346209_2_alg».proof.Proof.Gen.KernelIdeal.Skeleton
import proofs.«102155_j63780264346209_2_alg».proof.Proof.LibKeepdims
import proofs.«102155_j63780264346209_2_alg».proof.Proof.LibColumnCasts
import proofs.«102155_j63780264346209_2_alg».proof.Proof.PayConst
import proofs.«102155_j63780264346209_2_alg».proof.Proof.Spec

noncomputable section

open scoped BigOperators

namespace Cert.KernelIdeal.Pay

open Cert.KernelIdeal Cert.KernelIdeal.Gen Idealize.ShloMosaic Idealize.ShloMosaic.ValueIdx

/-- The maximum reduction over the second axis from minus infinity, at row `p`: the fold of max over the row's entries. -/
theorem rowMaxRed_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (fun k => src (h.lift (ix1 p) k)) = _
  rw [ofBits_negInf]
  congr 1
  funext k
  exact congrArg src (funext fun d => Fin.ext (by
    match d with
    | ⟨0, _⟩ => rfl
    | ⟨1, _⟩ => rfl))

/-- Each row's maximum, kept as a column and spread back along the row. -/
def rowMaxB (m : FVec Ideal S256x2048 .f32) : FVec Ideal S256x2048 .f32 :=
  broadcastTo S256x2048
    (shapeCast S256x1 (multiReduction .maximumf [1] S256 m 0xFF800000#32 Facts₀.reduces_S256x2048_S256 (.inl rfl) rfl)
      Facts₀.shapeCasts_S256_S256x1)
    Facts₀.broadcasts_S256x1_S256x2048

/-- Each row's sum, kept as a column and spread back along the row. -/
def rowSumB (m : FVec Ideal S256x2048 .f32) : FVec Ideal S256x2048 .f32 :=
  broadcastTo S256x2048
    (shapeCast S256x1 (multiReduction .add [1] S256 m 0x00000000#32 Facts₀.reduces_S256x2048_S256 (.inl rfl) rfl)
      Facts₀.shapeCasts_S256_S256x1)
    Facts₀.broadcasts_S256x1_S256x2048

theorem rowMaxB_apply (m : FVec Ideal S256x2048 .f32) (r : Fin 256) (k : Fin 2048) :
    rowMaxB m (ix2 r k) = (Finset.univ : Finset (Fin 2048)).fold max ⊥ (fun k' => m (ix2 r k')) := by
  unfold rowMaxB
  refine (Cert.Keepdims.broadcastTo_a1_ab_apply _ Facts₀.broadcasts_S256x1_S256x2048 r k).trans ?_
  refine (Cert.Keepdims.shapeCast_a_a1_apply _ Facts₀.shapeCasts_S256_S256x1 r (0 : Fin 1)).trans ?_
  exact rowMaxRed_apply m Facts₀.reduces_S256x2048_S256 (.inl rfl) rfl r

theorem rowSumB_apply (m : FVec Ideal S256x2048 .f32) (r : Fin 256) (k : Fin 2048) :
    rowSumB m (ix2 r k) = ∑ k' : Fin 2048, m (ix2 r k') := by
  unfold rowSumB
  refine (Cert.Keepdims.broadcastTo_a1_ab_apply _ Facts₀.broadcasts_S256x1_S256x2048 r k).trans ?_
  refine (Cert.Keepdims.shapeCast_a_a1_apply _ Facts₀.shapeCasts_S256_S256x1 r (0 : Fin 1)).trans ?_
  exact Cert.ColumnCasts.rowSum_apply m Facts₀.reduces_S256x2048_S256 (.inl rfl) rfl r

/-- The unnormalised weights: the exponential of each entry less its row's maximum. -/
def expRows (m : FVec Ideal S256x2048 .f32) : FVec Ideal S256x2048 .f32 := exp (subf m (rowMaxB m))

/-- The row-wise softmax. -/
def softmaxRows (m : FVec Ideal S256x2048 .f32) : FVec Ideal S256x2048 .f32 := divf (expRows m) (rowSumB (expRows m))

theorem expRows_apply (m : FVec Ideal S256x2048 .f32) (r : Fin 256) (k : Fin 2048) :
    expRows m (ix2 r k) = Cert.Mha.expo (fun k' => m (ix2 r k')) k := by
  show Ideal.exp (m (ix2 r k) - rowMaxB m (ix2 r k)) = _
  rw [rowMaxB_apply]
  rfl

theorem softmaxRows_apply (m : FVec Ideal S256x2048 .f32) (r : Fin 256) (k : Fin 2048) :
    softmaxRows m (ix2 r k) = Cert.Mha.weight (fun k' => m (ix2 r k')) k := by
  show Ideal.div (expRows m (ix2 r k)) (rowSumB (expRows m) (ix2 r k)) = _
  rw [rowSumB_apply, expRows_apply]
  exact congrArg (Ideal.div (Cert.Mha.expo (fun k' => m (ix2 r k')) k))
    (Finset.sum_congr rfl fun k' _ => expRows_apply m r k')

end Cert.KernelIdeal.Pay

end
-- ==== Proof.PayAttn.lean ====
/-
  The attention kernel's stored block at an entry.

  A block holds 256 query rows, and 2048 key rows and value rows, of two heads side by side (64 columns each).  For
  each head the kernel takes the scores of the head's query columns against the head's key columns, scaled by 1/8,
  takes the row-wise softmax, and multiplies by the head's value columns; the two heads' 256 x 64 results are put
  side by side.  So at column c the stored block holds head c / 64's weighted sum of value column c.
-/
import proofs.«102155_j63780264346209_2_alg».proof.Proof.PaySoftmax
import proofs.«102155_j63780264346209_2_alg».proof.Proof.LibMatmul
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx

/-- The scaled scores of head `hh` of a block: query row `r` against key row `k`, over the head's 64 columns, times 1/8. -/
def blkScore (v0 : Vec Ideal S1x256x128 .bf16) (v2 : Vec Ideal S1x2048x128 .bf16) (hh : Fin 2) (r : Fin 256) (k : Fin 2048) : EReal :=
  (∑ j : Fin 64, v0 (ix3 (0 : Fin 1) r ⟨hh.val * 64 + j.val, by omega⟩) * v2 (ix3 (0 : Fin 1) k ⟨hh.val * 64 + j.val, by omega⟩))
    * ((1 / 8 : ℝ) : EReal)

/-- The score matrix of 64 query columns against 64 key columns: the product with the keys transposed, times the literal 0.125. -/
def scores (q : FVec Ideal S256x64 .bf16) (kk : FVec Ideal S2048x64 .bf16) : FVec Ideal S256x2048 .f32 :=
  mulf (matmul dot_S256x64_S2048x64_S256x2048_1_1_0_0_n_n none q kk (constant S256x2048 .f32 0x00000000#32))
    (broadcast S256x2048 (Scalar.ofBits .f32 0x3E000000#32))

theorem scores_apply (q : FVec Ideal S256x64 .bf16) (kk : FVec Ideal S2048x64 .bf16) (r : Fin 256) (k : Fin 2048) :
    scores q kk (ix2 r k) = (∑ j : Fin 64, q (ix2 r j) * kk (ix2 k j)) * ((1 / 8 : ℝ) : EReal) := by
  show matmul dot_S256x64_S2048x64_S256x2048_1_1_0_0_n_n none q kk (constant (F := Ideal) S256x2048 .f32 0x00000000#32) (ix2 r k)
      * Ideal.ofBits .f32 0x3E000000#32 = _
  rw [ofBits_eighth]
  exact congrArg (· * ((1 / 8 : ℝ) : EReal)) (Cert.MatmulAt.matmul_zero_nt_apply (φ₁ := .bf16) (φ₂ := .bf16)
    Facts₀.dot_S256x64_S2048x64_S256x2048_1_1_0_0_n_n_wf none q kk r k)

/-- A softmax-weight matrix times 64 value columns. -/
def weighted (w : FVec Ideal S256x2048 .f32) (vv : FVec Ideal S2048x64 .bf16) : FVec Ideal S256x64 .bf16 :=
  truncf .bf16
    (matmul dot_S256x2048_S2048x64_S256x64_1_0_0_1_n_n none (truncf .bf16 w Facts₀.bitsLt_bf16_f32) vv
      (constant S256x64 .f32 0x00000000#32))
    Facts₀.bitsLt_bf16_f32

theorem weighted_apply (w : FVec Ideal S256x2048 .f32) (vv : FVec Ideal S2048x64 .bf16) (r : Fin 256) (j : Fin 64) :
    weighted w vv (ix2 r j) = ∑ k : Fin 2048, w (ix2 r k) * vv (ix2 k j) :=
  Cert.MatmulAt.matmul_zero_plain_apply (φ₁ := .bf16) (φ₂ := .bf16)
    Facts₀.dot_S256x2048_S2048x64_S256x64_1_0_0_1_n_n_wf none (truncf .bf16 w Facts₀.bitsLt_bf16_f32) vv r j

/-- The query block cut to 64 columns from `o`, at `(r, j)`: the loaded block at `(0, r, o + j)`. -/
theorem qcut_apply (o : ℕ) (h : S256x128.Slices ![0, o] S256x64) (v0 : Vec Ideal S1x256x128 .bf16) (r : Fin 256) (j : Fin 64)
    (c : Fin 128) (hc : c.val = o + j.val) :
    extractStridedSlice S256x64 ![0, o] (k1_pay2 (F := Ideal) v0) h (ix2 r j) = v0 (ix3 (0 : Fin 1) r c) :=
  (slice2_axis1_apply o _ h r j c hc).trans (shapeCast_1ab_ab_apply v0 Facts₀.shapeCasts_S1x256x128_S256x128 r c)

/-- The key block cut to 64 columns from `o`. -/
theorem kcut_apply (o : ℕ) (h : S2048x128.Slices ![0, o] S2048x64) (v2 : Vec Ideal S1x2048x128 .bf16) (k : Fin 2048) (j : Fin 64)
    (c : Fin 128) (hc : c.val = o + j.val) :
    extractStridedSlice S2048x64 ![0, o] (k1_pay3 (F := Ideal) v2) h (ix2 k j) = v2 (ix3 (0 : Fin 1) k c) :=
  (slice2_axis1_apply o _ h k j c hc).trans (shapeCast_1ab_ab_apply v2 Facts₀.shapeCasts_S1x2048x128_S2048x128 k c)

/-- The value block cut to 64 columns from `o`. -/
theorem vcut_apply (o : ℕ) (h : S2048x128.Slices ![0, o] S2048x64) (v4 : Vec Ideal S1x2048x128 .bf16) (k : Fin 2048) (j : Fin 64)
    (c : Fin 128) (hc : c.val = o + j.val) :
    extractStridedSlice S2048x64 ![0, o] (k1_pay4 (F := Ideal) v4) h (ix2 k j) = v4 (ix3 (0 : Fin 1) k c) :=
  (slice2_axis1_apply o _ h k j c hc).trans (shapeCast_1ab_ab_apply v4 Facts₀.shapeCasts_S1x2048x128_S2048x128 k c)

/-- One head of a block, generic in the column offset `o = hh * 64`: the softmax weights of the head's scores. -/
theorem headWeights_apply (o : ℕ) (hh : Fin 2) (ho : o = hh.val * 64)
    (hq : S256x128.Slices ![0, o] S256x64) (hk : S2048x128.Slices ![0, o] S2048x64)
    (v0 : Vec Ideal S1x256x128 .bf16) (v2 : Vec Ideal S1x2048x128 .bf16) (r : Fin 256) (k : Fin 2048) :
    softmaxRows (scores (extractStridedSlice S256x64 ![0, o] (k1_pay2 (F := Ideal) v0) hq)
        (extractStridedSlice S2048x64 ![0, o] (k1_pay3 (F := Ideal) v2) hk)) (ix2 r k)
      = Cert.Mha.weight (blkScore v0 v2 hh r) k := by
  rw [softmaxRows_apply]
  refine congrArg (fun S => Cert.Mha.weight S k) (funext fun k' => ?_)
  rw [scores_apply]
  unfold blkScore
  refine congrArg (· * ((1 / 8 : ℝ) : EReal)) (Finset.sum_congr rfl fun j _ => ?_)
  rw [qcut_apply o hq v0 r j ⟨hh.val * 64 + j.val, by omega⟩ (by show hh.val * 64 + j.val = o + j.val; omega),
    kcut_apply o hk v2 k' j ⟨hh.val * 64 + j.val, by omega⟩ (by show hh.val * 64 + j.val = o + j.val; omega)]

/-- One head of a block, generic in the column offset: the weighted sum of the head's value columns. -/
theorem headOut_apply (o : ℕ) (hh : Fin 2) (ho : o = hh.val * 64)
    (hq : S256x128.Slices ![0, o] S256x64) (hk : S2048x128.Slices ![0, o] S2048x64)
    (v0 : Vec Ideal S1x256x128 .bf16) (v2 v4 : Vec Ideal S1x2048x128 .bf16) (r : Fin 256) (j : Fin 64)
    (c : Fin 128) (hc : c.val = o + j.val) :
    weighted (softmaxRows (scores (extractStridedSlice S256x64 ![0, o] (k1_pay2 (F := Ideal) v0) hq)
        (extractStridedSlice S2048x64 ![0, o] (k1_pay3 (F := Ideal) v2) hk)))
      (extractStridedSlice S2048x64 ![0, o] (k1_pay4 (F := Ideal) v4) hk) (ix2 r j)
      = ∑ k : Fin 2048, Cert.Mha.weight (blkScore v0 v2 hh r) k * v4 (ix3 (0 : Fin 1) k c) := by
  rw [weighted_apply]
  refine Finset.sum_congr rfl fun k _ => ?_
  rw [headWeights_apply o hh ho hq hk v0 v2 r k, vcut_apply o hk v4 k j c hc]

/-- Head 0's stored value is the generic head at offset 0. -/
theorem k1_pay5_eq (v0 : Vec Ideal S1x256x128 .bf16) (v2 v4 : Vec Ideal S1x2048x128 .bf16) :
    k1_pay5 (F := Ideal) v0 v2 v4
      = weighted (softmaxRows (scores (extractStridedSlice S256x64 ![0, 0] (k1_pay2 (F := Ideal) v0) Facts₀.slices_S256x128_o0_0_S256x64)
          (extractStridedSlice S2048x64 ![0, 0] (k1_pay3 (F := Ideal) v2) Facts₀.slices_S2048x128_o0_0_S2048x64)))
        (extractStridedSlice S2048x64 ![0, 0] (k1_pay4 (F := Ideal) v4) Facts₀.slices_S2048x128_o0_0_S2048x64) := rfl

/-- Head 1's softmax weights are the generic head's at offset 64. -/
theorem k1_pay7_eq (v0 : Vec Ideal S1x256x128 .bf16) (v2 : Vec Ideal S1x2048x128 .bf16) :
    k1_pay7 (F := Ideal) v0 v2
      = softmaxRows (scores (extractStridedSlice S256x64 ![0, 64] (k1_pay2 (F := Ideal) v0) Facts₀.slices_S256x128_o0_64_S256x64)
          (extractStridedSlice S2048x64 ![0, 64] (k1_pay3 (F := Ideal) v2) Facts₀.slices_S2048x128_o0_64_S2048x64)) := rfl

/-- The stored block: the two heads' outputs side by side, with a leading unit axis. -/
theorem k1_pay1_eq (v23 : FVec Ideal S256x64 .bf16) (v26 : FVec Ideal S2048x64 .bf16) (v38 : FVec Ideal S256x2048 .f32) :
    k1_pay1 (F := Ideal) v23 v26 v38
      = shapeCast S1x256x128
          (concatenate S256x128 1 [⟨S256x64, v23⟩, ⟨S256x64, weighted v38 v26⟩] Facts₀.concatenates_S256x64_S256x64_S256x128_d1)
          Facts₀.shapeCasts_S256x128_S1x256x128 := rfl

/-- The attention kernel's stored block at `(0, r, c)`: head `c / 64`'s softmax-weighted sum of value column `c`. -/
theorem k1_store_apply (v0 : Vec Ideal S1x256x128 .bf16) (v2 v4 : Vec Ideal S1x2048x128 .bf16) (r : Fin 256) (c : Fin 128) :
    k1_pay1 (F := Ideal) (k1_pay5 v0 v2 v4) (k1_pay6 v4) (k1_pay7 v0 v2) (ix3 (0 : Fin 1) r c)
      = ∑ k : Fin 2048, Cert.Mha.weight (blkScore v0 v2 ⟨c.val / 64, by omega⟩ r) k * v4 (ix3 (0 : Fin 1) k c) := by
  rw [k1_pay1_eq]
  refine (shapeCast_ab_1ab_apply _ Facts₀.shapeCasts_S256x128_S1x256x128 (0 : Fin 1) r c).trans ?_
  by_cases hlt : c.val < 64
  · have e1 : (⟨c.val / 64, by omega⟩ : Fin 2) = 0 := Fin.ext (by show c.val / 64 = 0; omega)
    rw [e1]
    refine (concatenate_pair_apply_left (t := S256x128) (s₁ := S256x64) (s₂ := S256x64) (1 : Fin 2) _ _
      Facts₀.concatenates_S256x64_S256x64_S256x128_d1 (ix2 r c) rfl (ix2 r (⟨c.val, hlt⟩ : Fin 64)) (by
        intro b
        match b with
        | ⟨0, _⟩ => rfl
        | ⟨1, _⟩ => rfl)).trans ?_
    rw [k1_pay5_eq]
    exact headOut_apply 0 0 rfl Facts₀.slices_S256x128_o0_0_S256x64 Facts₀.slices_S2048x128_o0_0_S2048x64 v0 v2 v4 r
      ⟨c.val, hlt⟩ c (by show c.val = 0 + c.val; omega)
  · have e1 : (⟨c.val / 64, by omega⟩ : Fin 2) = 1 := Fin.ext (by show c.val / 64 = 1; omega)
    rw [e1]
    refine (concatenate_pair_apply_right (t := S256x128) (s₁ := S256x64) (s₂ := S256x64) (1 : Fin 2) _ _
      Facts₀.concatenates_S256x64_S256x64_S256x128_d1 (ix2 r c) rfl rfl (ix2 r (⟨c.val - 64, by omega⟩ : Fin 64)) (by
        intro b hb
        match b with
        | ⟨0, _⟩ => rfl
        | ⟨1, _⟩ => exact absurd rfl hb) (by
        show c.val - 64 + 64 = c.val; omega)).trans ?_
    rw [k1_pay7_eq]
    exact headOut_apply 64 1 rfl Facts₀.slices_S256x128_o0_64_S256x64 Facts₀.slices_S2048x128_o0_64_S2048x64 v0 v2 v4 r
      ⟨c.val - 64, by omega⟩ c (by show c.val = 64 + (c.val - 64); omega)

end Cert.KernelIdeal.Pay

end
-- ==== Proof.PayPoint.lean ====
/-
  Region 1 (attention), from blocks to the array: what the region leaves in the attention output array.

  At grid point (batch b, head pair p, query tile qi) the body is given rows qi*256 .. qi*256+255 of the pair's 128
  query columns p*128 .. p*128+127 of the fused projection T, all 2048 rows of the pair's key columns
  1024+p*128 .. and of its value columns 2048+p*128 .., and stores the 256 x 128 block of the output at rows
  qi*256 .., columns p*128 ...  Column cc of the block belongs to head 2p + cc/64 = (p*128+cc)/64 with coordinate
  cc%64 = (p*128+cc)%64, so the stored entry is the attention output O[b, qi*256+r, p*128+cc].  The blocks tile the
  output array, so after the region the array is the attention output of the projection the region found.
-/
import proofs.«102155_j63780264346209_2_alg».proof.Proof.Spec
import proofs.«102155_j63780264346209_2_alg».proof.Proof.PayAttn

noncomputable section

open scoped BigOperators

namespace Cert.KernelIdeal.Pay

open Cert.KernelIdeal Cert.KernelIdeal.Gen Idealize.ShloMosaic Idealize.ShloMosaic.ValueIdx

/-- The attention output read at coordinates given by their values: equal values, equal entries. -/
theorem attn_congr_val (T : Fin 4 → Fin 2048 → Fin 3072 → EReal) {b b' : Fin 4} {s s' : Fin 2048} {e e' : Fin 1024}
    (hb : b.val = b'.val) (hs : s.val = s'.val) (he : e.val = e'.val) :
    Cert.Mha.attn T b s e = Cert.Mha.attn T b' s' e' := by
  obtain rfl : b = b' := Fin.ext hb
  obtain rfl : s = s' := Fin.ext hs
  obtain rfl : e = e' := Fin.ext he
  rfl

/-- One grid point's stored block is the attention output's block: with the three loaded blocks the bands of the
    projection `T` the point's windows name, entry `(0, r, cc)` of what is stored is `O[b, qi*256+r, p*128+cc]`. -/
theorem point_attn (T : Fin 4 → Fin 2048 → Fin 3072 → EReal) (b : Fin 4) (qi p : Fin 8)
    (x0 : Vec Ideal S1x256x128 .bf16) (x1 x2 : Vec Ideal S1x2048x128 .bf16)
    (h0 : ∀ (r : Fin 256) (cc : Fin 128),
      x0 (ix3 (0 : Fin 1) r cc) = T b ⟨qi.val * 256 + r.val, by omega⟩ ⟨p.val * 128 + cc.val, by omega⟩)
    (h1 : ∀ (k : Fin 2048) (cc : Fin 128), x1 (ix3 (0 : Fin 1) k cc) = T b k ⟨1024 + (p.val * 128 + cc.val), by omega⟩)
    (h2 : ∀ (k : Fin 2048) (cc : Fin 128), x2 (ix3 (0 : Fin 1) k cc) = T b k ⟨2048 + (p.val * 128 + cc.val), by omega⟩)
    (r : Fin 256) (cc : Fin 128) :
    k1_pay1 (F := Ideal) (k1_pay5 x0 x1 x2) (k1_pay6 x2) (k1_pay7 x0 x1) (ix3 (0 : Fin 1) r cc)
      = Cert.Mha.attn T b ⟨qi.val * 256 + r.val, by omega⟩ ⟨p.val * 128 + cc.val, by omega⟩ := by
  rw [k1_store_apply]
  unfold Cert.Mha.attn Cert.Mha.head
  refine Finset.sum_congr rfl fun k _ => ?_
  rw [h2 k cc]
  have hv : (⟨2048 + (p.val * 128 + cc.val), by omega⟩ : Fin 3072)
      = Cert.Mha.vcol ⟨(p.val * 128 + cc.val) / 64, by omega⟩ ⟨(p.val * 128 + cc.val) % 64, Nat.mod_lt _ (by norm_num)⟩ :=
    Fin.ext (by
      show 2048 + (p.val * 128 + cc.val) = 2048 + ((p.val * 128 + cc.val) / 64 * 64 + (p.val * 128 + cc.val) % 64)
      omega)
  have hS : blkScore x0 x1 ⟨cc.val / 64, by omega⟩ r
      = Cert.Mha.score T b ⟨(p.val * 128 + cc.val) / 64, by omega⟩ ⟨qi.val * 256 + r.val, by omega⟩ := by
    funext k'
    unfold blkScore Cert.Mha.score
    refine congrArg (· * ((1 / 8 : ℝ) : EReal)) (Finset.sum_congr rfl fun j _ => ?_)
    rw [h0, h1]
    have eq : (⟨p.val * 128 + (cc.val / 64 * 64 + j.val), by omega⟩ : Fin 3072)
        = Cert.Mha.qcol ⟨(p.val * 128 + cc.val) / 64, by omega⟩ j :=
      Fin.ext (by show p.val * 128 + (cc.val / 64 * 64 + j.val) = (p.val * 128 + cc.val) / 64 * 64 + j.val; omega)
    have ek : (⟨1024 + (p.val * 128 + (cc.val / 64 * 64 + j.val)), by omega⟩ : Fin 3072)
        = Cert.Mha.kcol ⟨(p.val * 128 + cc.val) / 64, by omega⟩ j :=
      Fin.ext (by
        show 1024 + (p.val * 128 + (cc.val / 64 * 64 + j.val)) = 1024 + ((p.val * 128 + cc.val) / 64 * 64 + j.val); omega)
    exact congrArg₂ (· * ·) (congrArg (T b _) eq) (congrArg (T b k') ek)
  rw [hS, hv]

end Cert.KernelIdeal.Pay

end
-- ==== Proof.KI.Val1Idx.lean ====
/-
  Region 1 (attention): the block indices of its four windows over the grid of 4 x 8 x 8 points, decided once.

  At point (batch b, head pair p, query tile qi) the query window and the output window are at block index (b, qi, p),
  the key window at (b, 0, 8+p) and the value window at (b, 0, 16+p); and every block index triple of the output
  array is some point's.  Also here: the fused projection by coordinates, and the function the output array ends holding.
-/
import proofs.«102155_j63780264346209_2_alg».proof.Proof.Spec
import proofs.«102155_j63780264346209_2_alg».proof.Proof.KI.Reg1
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

-- the TensorCore's buffer contents when the region is entered
variable (V : (c : Dev nD) → (b : Ref sig .tc) → Buf (Elt Ideal) ((c : Thread nD τ).loc b))

theorem hz1 : (![0, 0, 0] : Fin 3 → Nat) = fun _ => 0 := funext fun a => by fin_cases a <;> rfl

/-- The fused projection as the region finds it, by coordinates. -/
abbrev T1 (c : Dev nD) : Fin 4 → Fin 2048 → Fin 3072 → EReal := fun b s e => V c main_v6 (ix3 b s e)

/-- What the output array ends holding: the attention output of that projection, index by index. -/
abbrev G1 (c : Dev nD) : S4x2048x1024.Idx → Elt Ideal .bf16 := fun i =>
  Cert.Mha.attn (T1 V c) (⟨(i 0).val, (i 0).isLt⟩ : Fin 4) (⟨(i 1).val, (i 1).isLt⟩ : Fin 2048) (⟨(i 2).val, (i 2).isLt⟩ : Fin 1024)

/-- The four windows' block indices over the grid: the query window moves with the output window; the key and value
    windows sit at row block 0 and at column blocks 8 and 16 past the output's; the output's block indices' ranges. -/
theorem idx_facts1 : ∀ t : Fin cfg1.N,
    win1_0.index t (0 : Fin 3) = win1_3.index t (0 : Fin 3)
    ∧ win1_0.index t (1 : Fin 3) = win1_3.index t (1 : Fin 3)
    ∧ win1_0.index t (2 : Fin 3) = win1_3.index t (2 : Fin 3)
    ∧ win1_1.index t (0 : Fin 3) = win1_3.index t (0 : Fin 3)
    ∧ win1_1.index t (1 : Fin 3) = 0
    ∧ win1_1.index t (2 : Fin 3) = 8 + win1_3.index t (2 : Fin 3)
    ∧ win1_2.index t (0 : Fin 3) = win1_3.index t (0 : Fin 3)
    ∧ win1_2.index t (1 : Fin 3) = 0
    ∧ win1_2.index t (2 : Fin 3) = 16 + win1_3.index t (2 : Fin 3)
    ∧ win1_3.index t (0 : Fin 3) < 4
    ∧ win1_3.index t (1 : Fin 3) < 8
    ∧ win1_3.index t (2 : Fin 3) < 8 :=
  (by decide +kernel : ∀ t : Fin grid1.N, _)

/-- Every block index triple of the output array is some point's. -/
theorem idx_onto1 : ∀ (q0 : Fin 4) (q1 : Fin 8) (q2 : Fin 8), ∃ t : Fin cfg1.N, win1_3.index t = ![q0.val, q1.val, q2.val] :=
  (by decide +kernel : ∀ (q0 : Fin 4) (q1 : Fin 8) (q2 : Fin 8), ∃ t : Fin grid1.N, win1_3.index t = ![q0.val, q1.val, q2.val])

end Cert.KernelIdeal.Frame

end
-- ==== Proof.KI.Val1.lean ====
/-
  Region 1 (attention), from blocks to the array.

  Every grid point (batch b, head pair p, query tile qi) writes back the 256 x 128 block of the output array at block
  index (b, qi, p), computed from the query block at the same block index of the fused projection and the key and value
  blocks at block indices (b, 0, 8+p) and (b, 0, 16+p).  The written block is the attention output's block, the blocks
  tile the output array, so after the region the array is the attention output of the projection the region found.
-/
import proofs.«102155_j63780264346209_2_alg».proof.Proof.PayPoint
import proofs.«102155_j63780264346209_2_alg».proof.Proof.KI.Val1Idx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

-- the TensorCore's buffer contents when the region is entered
variable (V : (c : Dev nD) → (b : Ref sig .tc) → Buf (Elt Ideal) ((c : Thread nD τ).loc b))

/-- What point `t` writes back is block `t` of the attention output of the projection the region finds. -/
theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz1]
  simp only [View.ld_unit_zero (S := S1x256x128) hz1, View.ld_unit_zero (S := S1x2048x128) hz1]
  obtain ⟨e00, e01, e02, e10, e11, e12, e20, e21, e22, l0, l1, l2⟩ := idx_facts1 t
  funext j
  have hj0 : (j 0).val < 1 := (j 0).isLt
  have hj1 : (j 1).val < 256 := (j 1).isLt
  have hj2 : (j 2).val < 128 := (j 2).isLt
  have hx : (cfg1.win 3).xinj (grid1.coords t) j = ix3 (0 : Fin 1) (⟨(j 1).val, hj1⟩ : Fin 256) (⟨(j 2).val, hj2⟩ : Fin 128) :=
    funext fun a => Fin.ext (by
      match a with
      | ⟨0, _⟩ => show (j 0).val = 0; omega
      | ⟨1, _⟩ => rfl
      | ⟨2, _⟩ => rfl)
  refine (congrArg (k1_pay1 (F := Ideal) (k1_pay5 (iblk1 V c 0 t) (iblk1 V c 1 t) (iblk1 V c 2 t)) (k1_pay6 (iblk1 V c 2 t))
    (k1_pay7 (iblk1 V c 0 t) (iblk1 V c 1 t))) hx).trans ?_
  refine (Cert.KernelIdeal.Pay.point_attn (T1 V c) ⟨win1_3.index t (0 : Fin 3), l0⟩ ⟨win1_3.index t (1 : Fin 3), l1⟩
    ⟨win1_3.index t (2 : Fin 3), l2⟩ (iblk1 V c 0 t) (iblk1 V c 1 t) (iblk1 V c 2 t) ?_ ?_ ?_ ⟨(j 1).val, hj1⟩ ⟨(j 2).val, hj2⟩).trans ?_
  · intro r cc
    show V c main_v6 (((cfg1.win 0).blk t).view.emb (ix3 (0 : Fin 1) r cc)) = V c main_v6 (ix3 _ _ _)
    refine congrArg (V c main_v6) (funext fun a => Fin.ext ?_)
    match a with
    | ⟨0, _⟩ => show win1_0.index t (0 : Fin 3) * 1 + 1 * 0 = win1_3.index t (0 : Fin 3); omega
    | ⟨1, _⟩ => show win1_0.index t (1 : Fin 3) * 256 + 1 * r.val = win1_3.index t (1 : Fin 3) * 256 + r.val; omega
    | ⟨2, _⟩ => show win1_0.index t (2 : Fin 3) * 128 + 1 * cc.val = win1_3.index t (2 : Fin 3) * 128 + cc.val; omega
  · intro k cc
    show V c main_v6 (((cfg1.win 1).blk t).view.emb (ix3 (0 : Fin 1) k cc)) = V c main_v6 (ix3 _ _ _)
    refine congrArg (V c main_v6) (funext fun a => Fin.ext ?_)
    match a with
    | ⟨0, _⟩ => show win1_1.index t (0 : Fin 3) * 1 + 1 * 0 = win1_3.index t (0 : Fin 3); omega
    | ⟨1, _⟩ => show win1_1.index t (1 : Fin 3) * 2048 + 1 * k.val = k.val; omega
    | ⟨2, _⟩ => show win1_1.index t (2 : Fin 3) * 128 + 1 * cc.val = 1024 + (win1_3.index t (2 : Fin 3) * 128 + cc.val); omega
  · intro k cc
    show V c main_v6 (((cfg1.win 2).blk t).view.emb (ix3 (0 : Fin 1) k cc)) = V c main_v6 (ix3 _ _ _)
    refine congrArg (V c main_v6) (funext fun a => Fin.ext ?_)
    match a with
    | ⟨0, _⟩ => show win1_2.index t (0 : Fin 3) * 1 + 1 * 0 = win1_3.index t (0 : Fin 3); omega
    | ⟨1, _⟩ => show win1_2.index t (1 : Fin 3) * 2048 + 1 * k.val = k.val; omega
    | ⟨2, _⟩ => show win1_2.index t (2 : Fin 3) * 128 + 1 * cc.val = 2048 + (win1_3.index t (2 : Fin 3) * 128 + cc.val); omega
  · show _ = G1 V c (((cfg1.win 3).blk t).view.emb j)
    refine Cert.KernelIdeal.Pay.attn_congr_val (T1 V c) ?_ ?_ ?_
    · show win1_3.index t (0 : Fin 3) = win1_3.index t (0 : Fin 3) * 1 + 1 * (j 0).val; omega
    · show win1_3.index t (1 : Fin 3) * 256 + (j 1).val = win1_3.index t (1 : Fin 3) * 256 + 1 * (j 1).val; omega
    · show win1_3.index t (2 : Fin 3) * 128 + (j 2).val = win1_3.index t (2 : Fin 3) * 128 + 1 * (j 2).val; omega

/-- An index of the output array is in point `t`'s block iff each coordinate is in the block's range on its axis. -/
theorem blkMem1 (t : Fin cfg1.N) (i : S4x2048x1024.Idx) :
    i ∈ ((cfg1.win 3).blk t).view.set ↔ ∀ a : Fin 3, win1_3.index t a * S1x256x128.size a ≤ (i a).val
      ∧ (i a).val < win1_3.index t a * S1x256x128.size a + S1x256x128.size a := by
  show i ∈ ((View.whole main_v7).slice (win1_3.rect t)).set ↔ _
  rw [View.set_slice_whole, Rect.mem_set_unit]
  exact Iff.rfl

/-- The blocks tile the output array: index `(b, s, e)` is in the block of the point with block index `(b, s / 256, e / 128)`. -/
theorem covered1 (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, ht⟩ := idx_onto1 ⟨(i 0).val, hi0⟩ ⟨(i 1).val / 256, by omega⟩ ⟨(i 2).val / 128, by omega⟩
  have q0 : win1_3.index t (0 : Fin 3) = (i 0).val := congrFun ht 0
  have q1 : win1_3.index t (1 : Fin 3) = (i 1).val / 256 := congrFun ht 1
  have q2 : win1_3.index t (2 : Fin 3) = (i 2).val / 128 := congrFun ht 2
  refine ⟨t, flush1_3 t, ?_⟩
  rw [blkMem1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 128 ≤ (i 2).val ∧ (i 2).val < win1_3.index t (2 : Fin 3) * 128 + 128; omega

/-- The output array after the region: the attention output of the projection the region found. -/
theorem final1 (c : Dev nD) : (dat1 (F := Ideal) V c).arrAt 3 cfg1.N
    = fun i : S4x2048x1024.Idx => Cert.Mha.attn (fun b s e => V c main_v6 (ix3 b s e))
        (⟨(i 0).val, (i 0).isLt⟩ : Fin 4) (⟨(i 1).val, (i 1).isLt⟩ : Fin 2048) (⟨(i 2).val, (i 2).isLt⟩ : Fin 1024) :=
  (dat1 V c).arrAt_eq_of_cover 3 (G1 V c) (fun t _ => flushed1_eq V c t) covered1

end Cert.KernelIdeal.Frame

end
-- ==== Proof.KI.Val2.lean ====
/-
  Region 2, from blocks to the array.

  At grid point t the region's body leaves in the result window's buffer the product of rows 1024 t .. 1024 t + 1023
  of the left array with the whole right array, and the pipeline writes that buffer back over rows 1024 t ..
  1024 t + 1023 of the result array.  The eight points' row blocks tile the 8192 rows, so after the region the result
  array holds, at row p and column q, the sum over d of the left array at (p, d) times the right array at (d, q).
-/
import proofs.«102155_j63780264346209_2_alg».proof.Proof.KI.Reg2
import proofs.«102155_j63780264346209_2_alg».proof.Proof.PayMatmul
import Idealize.ShloMosaic.Lib.Pipeline.Value

set_option maxRecDepth 16384

noncomputable section

open scoped BigOperators

namespace Cert.KernelIdeal.Frame

open Cert.KernelIdeal Cert.KernelIdeal.Gen
open Idealize.ShloMosaic Idealize.ShloMosaic.TcCoe Idealize.ShloMosaic.ValueIdx
open Idealize.SL.Sem
open Idealize.ShloMosaic.Pipeline (Dat Cfg Window)

-- the TensorCore's buffer contents when the region is entered, at the extended reals
variable (V : (c : Dev nD) → (b : Ref sig .tc) → Buf (Elt Ideal) ((c : Thread nD τ).loc b))

theorem hz2 : (![0, 0] : Fin 2 → Nat) = fun _ => 0 := funext fun a => by fin_cases a <;> rfl

/-- The product of an 8192 x 1024 array with a 1024 x 1024 array, entry by entry. -/
def G2 (A : S8192x1024.Idx → EReal) (B : S1024x1024.Idx → EReal) : S8192x1024.Idx → EReal := fun i =>
  ∑ d : Fin 1024, A (ix2 (⟨(i 0).val, (i 0).isLt⟩ : Fin 8192) d) * B (ix2 d (⟨(i 1).val, (i 1).isLt⟩ : Fin 1024))

/-- The body's stored block at any index of the block. -/
theorem pay2_at (v0 v2 : Vec Ideal S1024x1024 .bf16) (y : S1024x1024.Idx) :
    k2_pay1 (F := Ideal) v0 v2 y
      = ∑ d : Fin 1024, v0 (ix2 (⟨(y 0).val, (y 0).isLt⟩ : Fin 1024) d) * v2 (ix2 d (⟨(y 1).val, (y 1).isLt⟩ : Fin 1024)) := by
  obtain ⟨r, e, rfl⟩ : ∃ (r : Fin 1024) (e : Fin 1024), y = ix2 r e := ⟨y 0, y 1, eq_ix2 y⟩
  exact Cert.KernelIdeal.Pay.k2_pay1_apply v0 v2 r e

/-- The printed index maps over the eight points: the left and result windows are at row block t, column block 0;
    the right window is at block (0, 0) throughout. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point t is rows 1024 t .. of the left array. -/
theorem iblk2_0_apply (c : Dev nD) (t : Fin cfg2.N) (x : S1024x1024.Idx) (k : S8192x1024.Idx)
    (hk0 : (k 0).val = 1024 * t.val + (x 0).val) (hk1 : (k 1).val = (x 1).val) :
    (iblk2 V c 0 t : Vec Ideal S1024x1024 .bf16) x = (V c main_v8 : S8192x1024.Idx → EReal) k := by
  obtain ⟨e0, e1, -, -, -, -⟩ := idx_facts2 t
  unfold iblk2
  rw [View.read_apply]
  show V c main_v8 _ = V c main_v8 _
  congr 1
  funext a
  apply Fin.ext
  match a with
  | ⟨0, _⟩ => show win2_0.index t 0 * 1024 + 1 * (x 0).val = (k 0).val; rw [e0, hk0]; omega
  | ⟨1, _⟩ => show win2_0.index t 1 * 1024 + 1 * (x 1).val = (k 1).val; rw [e1, hk1]; omega

/-- The right window's block at every point is the whole right array. -/
theorem iblk2_1_apply (c : Dev nD) (t : Fin cfg2.N) (x : S1024x1024.Idx) :
    (iblk2 V c 1 t : Vec Ideal S1024x1024 .bf16) x = (V c main_v3 : S1024x1024.Idx → EReal) x := by
  obtain ⟨-, -, e2, e3, -, -⟩ := idx_facts2 t
  unfold iblk2
  rw [View.read_apply]
  show V c main_v3 _ = V c main_v3 _
  congr 1
  funext a
  apply Fin.ext
  match a with
  | ⟨0, _⟩ => show win2_1.index t 0 * 1024 + 1 * (x 0).val = (x 0).val; rw [e2]; omega
  | ⟨1, _⟩ => show win2_1.index t 1 * 1024 + 1 * (x 1).val = (x 1).val; rw [e3]; omega

/-- What point t writes back is block t of the product of the arrays as the region finds them. -/
theorem flushed2_eq (c : Dev nD) (t : Fin cfg2.N) :
    (dat2 (F := Ideal) V c).flushed 2 t
      = ((cfg2.win 2).blk t).view.read (Elt Ideal) (G2 (V c main_v8) (V c main_v3)) := by
  show (cfg2.win 2).cut (grid2.coords t) ((dat2 (F := Ideal) V c).after 2 t) = _
  rw [after2_2]
  unfold out2_2
  rw [View.canon_unit_zero hz2]
  simp only [View.ld_unit_zero (S := S1024x1024) hz2]
  obtain ⟨-, -, -, -, e4, e5⟩ := idx_facts2 t
  funext j
  rw [View.read_apply]
  show k2_pay1 (F := Ideal) (iblk2 V c 0 t) (iblk2 V c 1 t) ((cfg2.win 2).xinj (grid2.coords t) j)
    = G2 (V c main_v8) (V c main_v3) (((cfg2.win 2).blk t).view.emb j)
  refine (pay2_at _ _ _).trans ?_
  unfold G2
  have hj0 : (j 0).val < 1024 := (j 0).isLt
  have hj1 : (j 1).val < 1024 := (j 1).isLt
  have h0 : ((((cfg2.win 2).blk t).view.emb j) 0).val = win2_2.index t (0 : Fin 2) * 1024 + 1 * (j 0).val := rfl
  have h1 : ((((cfg2.win 2).blk t).view.emb j) 1).val = win2_2.index t (1 : Fin 2) * 1024 + 1 * (j 1).val := rfl
  refine Finset.sum_congr rfl fun d _ => ?_
  refine congrArg₂ (· * ·) ?_ ?_
  · refine iblk2_0_apply V c t _ _ ?_ ?_
    · show ((((cfg2.win 2).blk t).view.emb j) 0).val = 1024 * t.val + (j 0).val
      rw [h0, e4]; omega
    · rfl
  · refine (iblk2_1_apply V c t _).trans (congrArg (V c main_v3 : S1024x1024.Idx → EReal) ?_)
    funext a
    apply Fin.ext
    match a with
    | ⟨0, _⟩ => rfl
    | ⟨1, _⟩ =>
      show (j 1).val = ((((cfg2.win 2).blk t).view.emb j) 1).val
      rw [h1, e5]; omega

/-- An index of the result array is in point t's block iff each coordinate is in the block's range on its axis. -/
theorem mem_blk2 (t : Fin cfg2.N) (i : S8192x1024.Idx) :
    i ∈ ((cfg2.win 2).blk t).view.set ↔ ∀ a : Fin 2, win2_2.index t a * S1024x1024.size a ≤ (i a).val
      ∧ (i a).val < win2_2.index t a * S1024x1024.size a + S1024x1024.size a := by
  show i ∈ ((View.whole main_v9).slice (win2_2.rect t)).set ↔ _
  rw [View.set_slice_whole, Rect.mem_set_unit]
  exact Iff.rfl

/-- Every index of the result array is in the block of the point its row falls to. -/
theorem cover2 (i : S8192x1024.Idx) :
    ∃ t : Fin cfg2.N, (cfg2.win 2).flush t = true ∧ i ∈ ((cfg2.win 2).blk t).view.set := by
  have hi0 : (i 0).val < 8192 := (i 0).isLt
  have hi1 : (i 1).val < 1024 := (i 1).isLt
  let t : Fin cfg2.N := (⟨(i 0).val / 1024, by show (i 0).val / 1024 < 8; omega⟩ : Fin 8)
  have ht : t.val = (i 0).val / 1024 := rfl
  obtain ⟨-, -, -, -, e4, e5⟩ := idx_facts2 t
  refine ⟨t, flush2_2 t, ?_⟩
  rw [mem_blk2]
  intro a
  match a with
  | ⟨0, _⟩ =>
    show win2_2.index t (0 : Fin 2) * 1024 ≤ (i 0).val ∧ (i 0).val < win2_2.index t (0 : Fin 2) * 1024 + 1024
    rw [e4, ht]; omega
  | ⟨1, _⟩ =>
    show win2_2.index t (1 : Fin 2) * 1024 ≤ (i 1).val ∧ (i 1).val < win2_2.index t (1 : Fin 2) * 1024 + 1024
    rw [e5]; omega

/-- After the region the result array is the product of the left and right arrays as the region found them. -/
theorem final2 (c : Dev nD) :
    (dat2 (F := Ideal) V c).arrAt 2 cfg2.N = G2 (V c main_v8) (V c main_v3) :=
  (dat2 (F := Ideal) V c).arrAt_eq_of_cover 2 (G2 (V c main_v8) (V c main_v3)) (fun t _ => flushed2_eq V c t) cover2

end Cert.KernelIdeal.Frame

end
-- ==== Proof.KI.ValueB.lean ====
/-
  The idealized kernel's values, continued. Region 1 leaves the attention output of the projection; flattened to
  8192 rows and multiplied in region 2 by the transposed output weights, then reshaped, it is the specification's
  result: at (b, s, e), Σ_d O[b,s,d]·W_o[e,d].
-/
import proofs.«102155_j63780264346209_2_alg».proof.Proof.KI.ValueA
import proofs.«102155_j63780264346209_2_alg».proof.Proof.KI.Val1
import proofs.«102155_j63780264346209_2_alg».proof.Proof.KI.Val2

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-! ## Region 1: the attention output -/

/-- What region 1's windows read is the specification's projection, as a function of batch, row and column. -/
theorem projT (c : Dev nD) : (fun (b : Fin 4) (s : Fin 2048) (e : Fin 3072) => (V3 m c main_v6 (ix3 b s e) : EReal))
    = Cert.Mha.proj (m ((c : Thread nD τ).loc main_arg0)) (m ((c : Thread nD τ).loc main_arg1)) :=
  funext fun b => funext fun s => funext fun e => V3_v6_apply m c b s e

/-- Region 1's result array is the attention output of the projection. -/
theorem V4_v7_apply (c : Dev nD) (b : Fin 4) (s : Fin 2048) (d : Fin 1024) :
    (V4 m c main_v7 (ix3 b s d) : EReal)
      = Cert.Mha.attn (Cert.Mha.proj (m ((c : Thread nD τ).loc main_arg0)) (m ((c : Thread nD τ).loc main_arg1))) b s d := by
  refine (congrFun ((W4_out m c).trans (final1 (V3 m) c)) (ix3 b s d)).trans ?_
  show Cert.Mha.attn (fun (b : Fin 4) (s : Fin 2048) (e : Fin 3072) => (V3 m c main_v6 (ix3 b s e) : EReal)) b s d = _
  rw [projT]

/-! ## The third host stretch -/

/-- The flattened attention output. -/
theorem V5_v8 (c : Dev nD) : (V5 m c main_v8 : S8192x1024.Idx → EReal)
    = shapeCast S8192x1024 (V4 m c main_v7 : S4x2048x1024.Idx → EReal) shapeCasts_S4x2048x1024_S8192x1024 := by
  show StableHlo.after hostOps2 (W4 m c) (Proc.devRef .tc main_v8) = _
  after_results
  rfl
theorem V5_v8_apply (c : Dev nD) (b : Fin 4) (s : Fin 2048) (d : Fin 1024) :
    (V5 m c main_v8 (ix2 (⟨b.val * 2048 + s.val, by omega⟩ : Fin 8192) d) : EReal)
      = Cert.Mha.attn (Cert.Mha.proj (m ((c : Thread nD τ).loc main_arg0)) (m ((c : Thread nD τ).loc main_arg1))) b s d :=
  ((congrFun (V5_v8 m c) _).trans (shapeCast_apply _ _ _ (ix3 b s d) (by
    rw [Shape.rowMajor_val_two, Shape.rowMajor_val_three]; rfl))).trans (V4_v7_apply m c b s d)
/-- The transposed output weights reach region 2 as the first host stretch left them. -/
theorem V5_v3 (c : Dev nD) : V5 m c main_v3 = V1 m c main_v3 :=
  (W5_of m c main_v3 (by decide)).trans <| (W4_of_ne m c main_v3 (by decide)).trans <|
    (W3_of m c main_v3 (by decide)).trans (W2_of_ne m c main_v3 (by decide))

/-! ## Region 2 and the last host stretch: the result -/

theorem V6_v9 (c : Dev nD) : (V6 m c main_v9 : S8192x1024.Idx → EReal) = G2 (V5 m c main_v8) (V5 m c main_v3) :=
  (W6_arr m c 2).trans (final2 (V5 m) c)

theorem W7_v10 (c : Dev nD) : (W7 m c main_v10 : S4x2048x1024.Idx → EReal)
    = shapeCast S4x2048x1024 (V6 m c main_v9 : S8192x1024.Idx → EReal) shapeCasts_S8192x1024_S4x2048x1024 := by
  show StableHlo.after hostOps3 (W6 m c) (Proc.devRef .tc main_v10) = _
  after_results
  rfl

/-- THE RESULT: the last valuation has the result buffer at the specification's function of the arguments. -/
theorem W7_v10_eq (c : Dev nD) : (W7 m c main_v10 : S4x2048x1024.Idx → EReal)
    = Cert.Mha.mha (m ((c : Thread nD τ).loc main_arg0)) (m ((c : Thread nD τ).loc main_arg1)) (m ((c : Thread nD τ).loc main_arg2)) := by
  funext i
  obtain ⟨b, s, e, rfl⟩ : ∃ (b : Fin 4) (s : Fin 2048) (e : Fin 1024), i = ix3 b s e := ⟨i 0, i 1, i 2, eq_ix3 i⟩
  refine (congrFun (W7_v10 m c) _).trans ?_
  refine (shapeCast_apply _ _ _ (ix2 (⟨b.val * 2048 + s.val, by omega⟩ : Fin 8192) e) (by
    rw [Shape.rowMajor_val_two, Shape.rowMajor_val_three]; rfl)).trans ?_
  rw [V6_v9]
  show (G2 (V5 m c main_v8) (V5 m c main_v3) (ix2 (⟨b.val * 2048 + s.val, by omega⟩ : Fin 8192) e) : EReal)
    = (Cert.Mha.outProj (Cert.Mha.attn (Cert.Mha.proj (m ((c : Thread nD τ).loc main_arg0)) (m ((c : Thread nD τ).loc main_arg1))))
        (m ((c : Thread nD τ).loc main_arg2)) b s e : EReal)
  unfold G2 Cert.Mha.outProj
  refine Finset.sum_congr rfl fun d _ => ?_
  exact congrArg₂ (· * ·) (V5_v8_apply m c b s d) ((congrFun (V5_v3 m c) _).trans (V1_v3_apply m c d e))

/-- THE RUN, READ: every weakly fair execution terminates without a fault with the result buffer at the
    specification's function of the launch arguments, and the arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v10)
        = Cert.Mha.mha (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v10 (by decide))).trans (W7_v10_eq m c),
     (h c _ (mem_uc main_arg0 (by decide))).trans (W7_main_arg0 m c),
     (h c _ (mem_uc main_arg1 (by decide))).trans (W7_main_arg1 m c),
     (h c _ (mem_uc main_arg2 (by decide))).trans (W7_main_arg2 m c)⟩) (run_main m ρ)

end Cert.KernelIdeal.Frame

end
-- ==== Proof.RefProj.lean ====
/-
  The reference's fused projection and the three per-head views of it.

  The first operation contracts x[b,s,d] with W_qkv[e,d] over d: the array T of the specification.  The next nine
  operations cut T into its query, key and value thirds (columns 0.., 1024.., 2048..), split each third's 1024 columns
  into 16 heads of 64, and move the head axis in front of the sequence axis.  Read at (b, h, s, j) they are T at
  (b, s, h*64+j), (b, s, 1024+h*64+j) and (b, s, 2048+h*64+j).
-/
import proofs.«102155_j63780264346209_2_alg».proof.Proof.Gen.ReferenceIdeal.Read
import proofs.«102155_j63780264346209_2_alg».proof.Proof.Spec

noncomputable section

open scoped BigOperators

namespace Cert.ReferenceIdeal.RefValue

open Cert.ReferenceIdeal Cert.ReferenceIdeal.Read Idealize.ShloMosaic Idealize.ShloMosaic.ValueIdx

/-- The first operation is the fused projection. -/
theorem v0_eq (x0 : (⟨S4x2048x1024, .f32⟩ : BufTy).Contents (Elt Ideal)) (x1 : (⟨S3072x1024, .f32⟩ : BufTy).Contents (Elt Ideal))
    (b : Fin 4) (s : Fin 2048) (e : Fin 3072) :
    val_main_v0 (F := Ideal) x0 x1 (ix3 b s e) = Cert.Mha.proj x0 x1 b s e := by
  rw [val_main_v0_apply]
  unfold Cert.Mha.proj
  refine Finset.sum_congr rfl fun d _ => ?_
  have el : lidx_main_v0 (ix3 b s e) d = ix3 b s d := funext fun a => by
    match a with
    | ⟨0, _⟩ => rfl
    | ⟨1, _⟩ => rfl
    | ⟨2, _⟩ => rfl
  have er : ridx_main_v0 (ix3 b s e) d = ix2 e d := funext fun a => by
    match a with
    | ⟨0, _⟩ => rfl
    | ⟨1, _⟩ => rfl
  rw [el, er]

/-- Splitting column `h*64+j` of a 1024-column array back into head and coordinate. -/
theorem idx_split (b : Fin 4) (s : Fin 2048) (h : Fin 16) (j : Fin 64) :
    idx_main_v4 (ix4 b s h j) = ix3 b s (Cert.Mha.ocol h j) := funext fun a => Fin.ext (by
  have hb := b.isLt; have hs := s.isLt; have hh := h.isLt; have hj := j.isLt
  match a with
  | ⟨0, _⟩ => show (((b.val * 2048 + s.val) * 16 + h.val) * 64 + j.val) / 2097152 = b.val; omega
  | ⟨1, _⟩ => show (((b.val * 2048 + s.val) * 16 + h.val) * 64 + j.val) / 1024 % 2048 = s.val; omega
  | ⟨2, _⟩ => show (((b.val * 2048 + s.val) * 16 + h.val) * 64 + j.val) % 1024 = h.val * 64 + j.val; omega)

/-- Moving the head axis in front of the sequence axis. -/
theorem idx_swap (b : Fin 4) (h : Fin 16) (s : Fin 2048) (j : Fin 64) :
    idx_main_v5 (ix4 b h s j) = ix4 b s h j := funext fun a => by
  match a with
  | ⟨0, _⟩ => rfl
  | ⟨1, _⟩ => rfl
  | ⟨2, _⟩ => rfl
  | ⟨3, _⟩ => rfl

/-- The queries: head `h`, row `s`, coordinate `j` is the projection's column `h*64+j`. -/
theorem v5_eq (x0 : (⟨S4x2048x1024, .f32⟩ : BufTy).Contents (Elt Ideal)) (x1 : (⟨S3072x1024, .f32⟩ : BufTy).Contents (Elt Ideal))
    (b : Fin 4) (h : Fin 16) (s : Fin 2048) (j : Fin 64) :
    val_main_v5 (F := Ideal) x0 x1 (ix4 b h s j) = Cert.Mha.proj x0 x1 b s (Cert.Mha.qcol h j) := by
  rw [val_main_v5_apply, idx_swap, val_main_v4_apply, idx_split, val_main_v1_apply]
  have e : idx_main_v1 (ix3 b s (Cert.Mha.ocol h j)) = ix3 b s (Cert.Mha.qcol h j) := funext fun a => by
    match a with
    | ⟨0, _⟩ => rfl
    | ⟨1, _⟩ => rfl
    | ⟨2, _⟩ => rfl
  rw [e, v0_eq]

/-- The keys: head `h`, row `s`, coordinate `j` is the projection's column `1024+h*64+j`. -/
theorem v7_eq (x0 : (⟨S4x2048x1024, .f32⟩ : BufTy).Contents (Elt Ideal)) (x1 : (⟨S3072x1024, .f32⟩ : BufTy).Contents (Elt Ideal))
    (b : Fin 4) (h : Fin 16) (s : Fin 2048) (j : Fin 64) :
    val_main_v7 (F := Ideal) x0 x1 (ix4 b h s j) = Cert.Mha.proj x0 x1 b s (Cert.Mha.kcol h j) := by
  rw [val_main_v7_apply, show idx_main_v7 (ix4 b h s j) = ix4 b s h j from idx_swap b h s j, val_main_v6_apply,
    show idx_main_v6 (ix4 b s h j) = ix3 b s (Cert.Mha.ocol h j) from idx_split b s h j, val_main_v2_apply]
  have e : idx_main_v2 (ix3 b s (Cert.Mha.ocol h j)) = ix3 b s (Cert.Mha.kcol h j) := funext fun a => by
    match a with
    | ⟨0, _⟩ => rfl
    | ⟨1, _⟩ => rfl
    | ⟨2, _⟩ => rfl
  rw [e, v0_eq]

/-- The values: head `h`, row `s`, coordinate `j` is the projection's column `2048+h*64+j`. -/
theorem v9_eq (x0 : (⟨S4x2048x1024, .f32⟩ : BufTy).Contents (Elt Ideal)) (x1 : (⟨S3072x1024, .f32⟩ : BufTy).Contents (Elt Ideal))
    (b : Fin 4) (h : Fin 16) (s : Fin 2048) (j : Fin 64) :
    val_main_v9 (F := Ideal) x0 x1 (ix4 b h s j) = Cert.Mha.proj x0 x1 b s (Cert.Mha.vcol h j) := by
  rw [val_main_v9_apply, show idx_main_v9 (ix4 b h s j) = ix4 b s h j from idx_swap b h s j, val_main_v8_apply,
    show idx_main_v8 (ix4 b s h j) = ix3 b s (Cert.Mha.ocol h j) from idx_split b s h j, val_main_v3_apply]
  have e : idx_main_v3 (ix3 b s (Cert.Mha.ocol h j)) = ix3 b s (Cert.Mha.vcol h j) := funext fun a => by
    match a with
    | ⟨0, _⟩ => rfl
    | ⟨1, _⟩ => rfl
    | ⟨2, _⟩ => rfl
  rw [e, v0_eq]

end Cert.ReferenceIdeal.RefValue

end
-- ==== Proof.RefConsts.lean ====
/-
  The float constants the reference spells, as the extended reals their words denote: 64 (whose square root, 8, divides
  the scores), minus infinity (from which a row's maximum is folded), and the square root of 64.
-/
import Idealize.ShloMosaic.PureOps.Ideal
import Idealize.ShloMosaic.PureOps.Ideal.Laws

noncomputable section

namespace Cert.ReferenceIdeal.RefConsts

open Idealize.ShloMosaic

/-- The word of `64.0` denotes the real 64. -/
theorem ofBits_64 : Ideal.ofBits .f32 0x42800000#32 = ((64 : ℝ) : EReal) := by
  simp [Ideal.ofBits, Ideal.ieee, -EReal.coe_mul]; norm_num

/-- The word of minus infinity denotes the bottom element. -/
theorem ofBits_neg_inf : Ideal.ofBits .f32 0xFF800000#32 = (⊥ : EReal) := by
  simp [Ideal.ofBits, Ideal.ieee]

/-- The square root of 64 is 8. -/
theorem sqrt_64 : Ideal.sqrt (((64 : ℝ) : EReal)) = ((8 : ℝ) : EReal) := by
  rw [Ideal.sqrt_coe, if_neg (by norm_num)]
  congr 1
  rw [show (64 : ℝ) = 8 ^ 2 by norm_num, Real.sqrt_sq (by norm_num)]

/-- Dividing by the square root of the word of 64 is multiplying by 1/8. -/
theorem div_sqrt_64 (x : EReal) :
    Ideal.div x (Ideal.sqrt (Ideal.ofBits .f32 0x42800000#32)) = x * (((1 / 8 : ℝ)) : EReal) := by
  rw [ofBits_64, sqrt_64]
  exact Ideal.div_coe (by norm_num) x

/-- The maximum with the bottom element on the left is the other operand. -/
theorem max_neg_inf (y : EReal) : max (Ideal.ofBits .f32 0xFF800000#32) y = y := by
  rw [ofBits_neg_inf]; exact max_bot_left y

end Cert.ReferenceIdeal.RefConsts

end
-- ==== Proof.RefSoftmax.lean ====
/-
  The reference's scores and softmax weights.

  Operations 10 to 24: the per-head product of queries and keys (a sum over the 64 coordinates of a head), divided by
  the square root of 64, that is multiplied by 1/8: the scores S[b,h,q,k] of the specification.  Then along k: the
  maximum M (a fold of max from minus infinity, then once more the maximum with minus infinity, which changes nothing),
  the exponentials exp(S - M), their sum (from the zero word, which adds nothing), and the quotient of each exponential
  by the sum: the softmax weights of the specification.
-/
import proofs.«102155_j63780264346209_2_alg».proof.Proof.RefProj
import proofs.«102155_j63780264346209_2_alg».proof.Proof.RefConsts

noncomputable section

open scoped BigOperators

namespace Cert.ReferenceIdeal.RefValue

open Cert.ReferenceIdeal Cert.ReferenceIdeal.Gen Cert.ReferenceIdeal.Read Idealize.ShloMosaic Idealize.ShloMosaic.ValueIdx

section
variable (x0 : (⟨S4x2048x1024, .f32⟩ : BufTy).Contents (Elt Ideal)) (x1 : (⟨S3072x1024, .f32⟩ : BufTy).Contents (Elt Ideal))

/-- The product of queries and keys of one head, before scaling. -/
theorem v10_eq (b : Fin 4) (h : Fin 16) (q k : Fin 2048) :
    val_main_v10 (F := Ideal) x0 x1 (ix4 b h q k)
      = ∑ j : Fin 64, Cert.Mha.proj x0 x1 b q (Cert.Mha.qcol h j) * Cert.Mha.proj x0 x1 b k (Cert.Mha.kcol h j) := by
  rw [val_main_v10_apply]
  refine Finset.sum_congr rfl fun j _ => ?_
  have el : lidx_main_v10 (ix4 b h q k) j = ix4 b h q j := funext fun a => by
    match a with
    | ⟨0, _⟩ => rfl
    | ⟨1, _⟩ => rfl
    | ⟨2, _⟩ => rfl
    | ⟨3, _⟩ => rfl
  have er : ridx_main_v10 (ix4 b h q k) j = ix4 b h k j := funext fun a => by
    match a with
    | ⟨0, _⟩ => rfl
    | ⟨1, _⟩ => rfl
    | ⟨2, _⟩ => rfl
    | ⟨3, _⟩ => rfl
  rw [el, er, v5_eq, v7_eq]

/-- The scaled scores. -/
theorem v13_eq (b : Fin 4) (h : Fin 16) (q k : Fin 2048) :
    val_main_v13 (F := Ideal) x0 x1 (ix4 b h q k) = Cert.Mha.score (Cert.Mha.proj x0 x1) b h q k := by
  rw [val_main_v13_apply, val_main_v12_apply, val_main_v11_apply, val_main_cst_apply, v10_eq]
  simp only [Ideal.hostDivf_def, Ideal.hostUnary_sqrt_def, Ideal.ofBits_def]
  rw [RefConsts.div_sqrt_64]
  rfl

/-- An index of the row maxima with the key coordinate put back. -/
theorem lift_ix3 (hR : S4x16x2048x2048.Reduces [3] S4x16x2048) (b : Fin 4) (h : Fin 16) (q : Fin 2048)
    (k : Fin (S4x16x2048x2048.size 3)) : hR.lift (ix3 b h q) k = ix4 b h q (⟨k.val, k.isLt⟩ : Fin 2048) := by
  funext c; apply Fin.ext
  fin_cases c <;> rfl

/-- The fold of max along the keys. -/
theorem v14_eq (b : Fin 4) (h : Fin 16) (q : Fin 2048) :
    val_main_v14 (F := Ideal) x0 x1 (ix3 b h q) = Cert.Mha.rowMax (Cert.Mha.score (Cert.Mha.proj x0 x1) b h q) := by
  have hR : S4x16x2048x2048.Reduces [3] S4x16x2048 := by decide
  unfold val_main_v14
  generalize hy : val_main_v13 (F := Ideal) x0 x1 = y
  have hy' : ∀ k : Fin 2048, y (ix4 b h q k) = Cert.Mha.score (Cert.Mha.proj x0 x1) b h q k := fun k => by
    rw [← hy]; exact v13_eq x0 x1 b h q k
  refine (Host.reduce_eq_fold_single (FloatOps.maximumf (F := Ideal) (φ := .f32)) (y : S4x16x2048x2048.Idx → EReal)
    (val_main_cst_0 (F := Ideal)) reducesTo_S4x16x2048x2048_S4x16x2048_d3 hR h_S_ (ix3 b h q)).trans ?_
  rw [val_main_cst_0_apply]
  unfold Cert.Mha.rowMax
  have hf : (y ∘ hR.lift (ix3 b h q)) = fun k : Fin 2048 => Cert.Mha.score (Cert.Mha.proj x0 x1) b h q k :=
    funext fun k => (congrArg y (lift_ix3 hR b h q k)).trans (hy' _)
  have hi : FloatOps.ofBits (F := Ideal) .f32 0xFF800000#32 = (⊥ : EReal) := RefConsts.ofBits_neg_inf
  rw [hi]
  exact congrArg (fun f => Finset.fold max (⊥ : EReal) f (Finset.univ : Finset (Fin 2048))) hf

/-- The maximum with minus infinity once more leaves the row maximum. -/
theorem v16_eq (b : Fin 4) (h : Fin 16) (q : Fin 2048) :
    val_main_v16 (F := Ideal) x0 x1 (ix3 b h q) = Cert.Mha.rowMax (Cert.Mha.score (Cert.Mha.proj x0 x1) b h q) := by
  rw [val_main_v16_apply, val_main_v15_apply, val_main_cst_1_apply, v14_eq]
  simp only [Ideal.maximumf_def, Ideal.ofBits_def]
  exact RefConsts.max_neg_inf _

/-- The row maximum spread back along the keys. -/
theorem v18_eq (b : Fin 4) (h : Fin 16) (q k : Fin 2048) :
    val_main_v18 (F := Ideal) x0 x1 (ix4 b h q k) = Cert.Mha.rowMax (Cert.Mha.score (Cert.Mha.proj x0 x1) b h q) := by
  rw [val_main_v18_apply, val_main_v17_apply]
  have e : idx_main_v17 (idx_main_v18 (ix4 b h q k)) = ix3 b h q := funext fun a => by
    match a with
    | ⟨0, _⟩ => rfl
    | ⟨1, _⟩ => rfl
    | ⟨2, _⟩ => rfl
  rw [e, v16_eq]

/-- The exponentials of the scores less their row maximum. -/
theorem v20_eq (b : Fin 4) (h : Fin 16) (q k : Fin 2048) :
    val_main_v20 (F := Ideal) x0 x1 (ix4 b h q k) = Cert.Mha.expo (Cert.Mha.score (Cert.Mha.proj x0 x1) b h q) k := by
  rw [val_main_v20_apply, val_main_v19_apply, v13_eq, v18_eq]
  simp only [Ideal.hostUnary_exp_def, Ideal.subf_def]
  rfl

/-- The sum of a row's exponentials. -/
theorem v21_eq (b : Fin 4) (h : Fin 16) (q : Fin 2048) :
    val_main_v21 (F := Ideal) x0 x1 (ix3 b h q) = Cert.Mha.denom (Cert.Mha.score (Cert.Mha.proj x0 x1) b h q) := by
  rw [val_main_v21_apply, val_main_cst_2_apply]
  simp only [Ideal.ofBits_def, Ideal.ofBits_zero_f32, zero_add]
  unfold Cert.Mha.denom
  refine Finset.sum_congr rfl fun k _ => ?_
  have e : idx_main_v21 (ix3 b h q) k = ix4 b h q k := funext fun a => by
    match a with
    | ⟨0, _⟩ => rfl
    | ⟨1, _⟩ => rfl
    | ⟨2, _⟩ => rfl
    | ⟨3, _⟩ => rfl
  rw [e, v20_eq]

/-- The softmax weights. -/
theorem v24_eq (b : Fin 4) (h : Fin 16) (q k : Fin 2048) :
    val_main_v24 (F := Ideal) x0 x1 (ix4 b h q k) = Cert.Mha.weight (Cert.Mha.score (Cert.Mha.proj x0 x1) b h q) k := by
  rw [val_main_v24_apply, val_main_v23_apply, val_main_v22_apply]
  have e : idx_main_v22 (idx_main_v23 (ix4 b h q k)) = ix3 b h q := funext fun a => by
    match a with
    | ⟨0, _⟩ => rfl
    | ⟨1, _⟩ => rfl
    | ⟨2, _⟩ => rfl
  rw [e, v20_eq, v21_eq]
  simp only [Ideal.hostDivf_def]
  rfl

end

end Cert.ReferenceIdeal.RefValue

end
-- ==== Proof.RefStages.lean ====
/-
  The reference's attention output.

  Operation 25 contracts the softmax weights with the value rows of the same head: the head output of the
  specification.  Operations 26 and 27 move the sequence axis back in front of the head axis and merge head and
  coordinate into one column c = h*64+j, so that column c is head c / 64, coordinate c % 64: the array O of the
  specification.
-/
import proofs.«102155_j63780264346209_2_alg».proof.Proof.RefSoftmax

noncomputable section

open scoped BigOperators

namespace Cert.ReferenceIdeal.RefValue

open Cert.ReferenceIdeal Cert.ReferenceIdeal.Gen Cert.ReferenceIdeal.Read Idealize.ShloMosaic Idealize.ShloMosaic.ValueIdx

section
variable (x0 : (⟨S4x2048x1024, .f32⟩ : BufTy).Contents (Elt Ideal)) (x1 : (⟨S3072x1024, .f32⟩ : BufTy).Contents (Elt Ideal))

/-- The output of one head. -/
theorem v25_eq (b : Fin 4) (h : Fin 16) (q : Fin 2048) (j : Fin 64) :
    val_main_v25 (F := Ideal) x0 x1 (ix4 b h q j) = Cert.Mha.head (Cert.Mha.proj x0 x1) b h q j := by
  rw [val_main_v25_apply]
  unfold Cert.Mha.head
  refine Finset.sum_congr rfl fun k _ => ?_
  have el : lidx_main_v25 (ix4 b h q j) k = ix4 b h q k := funext fun a => by
    match a with
    | ⟨0, _⟩ => rfl
    | ⟨1, _⟩ => rfl
    | ⟨2, _⟩ => rfl
    | ⟨3, _⟩ => rfl
  have er : ridx_main_v25 (ix4 b h q j) k = ix4 b h k j := funext fun a => by
    match a with
    | ⟨0, _⟩ => rfl
    | ⟨1, _⟩ => rfl
    | ⟨2, _⟩ => rfl
    | ⟨3, _⟩ => rfl
  rw [el, er, v24_eq, v9_eq]

/-- Column `c` of the merged array is head `c / 64`, coordinate `c % 64`, with the sequence axis moved back. -/
theorem idx_merge (b : Fin 4) (s : Fin 2048) (c : Fin 1024) :
    idx_main_v26 (idx_main_v27 (ix3 b s c))
      = ix4 b (⟨c.val / 64, by omega⟩ : Fin 16) s (⟨c.val % 64, Nat.mod_lt _ (by norm_num)⟩ : Fin 64) :=
  funext fun a => Fin.ext (by
    have hb := b.isLt; have hs := s.isLt; have hc := c.isLt
    match a with
    | ⟨0, _⟩ => show ((b.val * 2048 + s.val) * 1024 + c.val) / 2097152 = b.val; omega
    | ⟨1, _⟩ => show ((b.val * 2048 + s.val) * 1024 + c.val) / 64 % 16 = c.val / 64; omega
    | ⟨2, _⟩ => show ((b.val * 2048 + s.val) * 1024 + c.val) / 1024 % 2048 = s.val; omega
    | ⟨3, _⟩ => show ((b.val * 2048 + s.val) * 1024 + c.val) % 64 = c.val % 64; omega)

/-- The attention output, the heads side by side. -/
theorem v27_eq (b : Fin 4) (s : Fin 2048) (c : Fin 1024) :
    val_main_v27 (F := Ideal) x0 x1 (ix3 b s c) = Cert.Mha.attn (Cert.Mha.proj x0 x1) b s c := by
  rw [val_main_v27_apply, val_main_v26_apply, idx_merge, v25_eq]
  rfl

end

end Cert.ReferenceIdeal.RefValue

end
-- ==== Proof.RefValue.lean ====
/-
  The reference computes the specification.

  The last operation contracts the attention output O[b,s,d] with W_o[e,d] over d; with the stages before it read as
  the specification's projection, scores, softmax weights, head outputs and merged attention output, the whole
  reference is the specification's function of the three argument arrays.
-/
import proofs.«102155_j63780264346209_2_alg».proof.Proof.RefStages

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's result at an index given by coordinates. -/
theorem v28_eq (x0 : (⟨S4x2048x1024, .f32⟩ : BufTy).Contents (Elt Ideal)) (x1 : (⟨S3072x1024, .f32⟩ : BufTy).Contents (Elt Ideal))
    (x2 : (⟨S1024x1024, .f32⟩ : BufTy).Contents (Elt Ideal)) (b : Fin 4) (s : Fin 2048) (e : Fin 1024) :
    val_main_v28 (F := Ideal) x0 x1 x2 (ix3 b s e)
      = Cert.Mha.outProj (Cert.Mha.attn (Cert.Mha.proj x0 x1)) x2 b s e := by
  rw [val_main_v28_apply]
  unfold Cert.Mha.outProj
  refine Finset.sum_congr rfl fun d _ => ?_
  have el : lidx_main_v28 (ix3 b s e) d = ix3 b s d := funext fun a => by
    match a with
    | ⟨0, _⟩ => rfl
    | ⟨1, _⟩ => rfl
    | ⟨2, _⟩ => rfl
  have er : ridx_main_v28 (ix3 b s e) d = ix2 e d := funext fun a => by
    match a with
    | ⟨0, _⟩ => rfl
    | ⟨1, _⟩ => rfl
  rw [el, er, v27_eq]

/-- The reference is the specification. -/
theorem ref_is_mha (x0 : (⟨S4x2048x1024, .f32⟩ : BufTy).Contents (Elt Ideal)) (x1 : (⟨S3072x1024, .f32⟩ : BufTy).Contents (Elt Ideal))
    (x2 : (⟨S1024x1024, .f32⟩ : BufTy).Contents (Elt Ideal)) :
    val_main_v28 (F := Ideal) x0 x1 x2 = Cert.Mha.mha x0 x1 x2 := by
  funext i
  obtain ⟨b, s, e, rfl⟩ : ∃ (b : Fin 4) (s : Fin 2048) (e : Fin 1024), i = ix3 b s e := ⟨i 0, i 1, i 2, eq_ix3 i⟩
  exact v28_eq x0 x1 x2 b s e

end Cert.ReferenceIdeal.RefValue

end
-- ==== Proof.lean ====
/-
  Multi-head softmax attention with a fused projection, as three tiled kernels against a plain jnp reference.

  Both programs compute, from x[b,s,d], W_qkv[e,d] and W_o[e,d],
    T = x · W_qkvᵀ,   per head h: S = (Q_h · K_hᵀ) · (1/8),  P = exp (S − rowmax S),  A = P / rowsum P,  O_h = A · V_h,
    Y = O · W_oᵀ
  (Proof/Spec.lean states it index by index over the extended reals). The kernel multiplies the scores by the
  literal 1/8 where the reference divides by the square root of 64, which is 8; the reference takes a further
  maximum with −∞, which changes nothing; the kernel tiles every product and sums each tile's terms in its own
  order, and a finite sum of extended reals does not depend on the order. So the two results are one function of the
  arguments, with no appeal to the arguments' finiteness.

  The kernel program's run: four stretches of host operations around three kernel regions, each region's grid
  points fetching blocks of its input arrays, running the body on them, and writing a block of its output back; the
  attention region reads one array, the projection, through three windows (queries, keys, values), each at its own
  share of the array. Proof/K/ and Proof/KI/ hold that run for the program as printed and for its idealization (the
  same text in two namespaces: the idealization rewrote nothing, so `preserves` has no conjunct); Proof/KI/Val*.lean
  and Proof/KI/Value*.lean read the idealized run's result array stage by stage; Proof/Ref*.lean read the
  reference's.
-/
import proofs.«102155_j63780264346209_2_alg».proof.Defs
import proofs.«102155_j63780264346209_2_alg».proof.Proof.Gen.Kernel
import proofs.«102155_j63780264346209_2_alg».proof.Proof.Gen.KernelIdeal
import proofs.«102155_j63780264346209_2_alg».proof.Proof.Gen.ReferenceIdeal
import proofs.«102155_j63780264346209_2_alg».proof.Proof.Gen.ReferenceIdeal.Run
import proofs.«102155_j63780264346209_2_alg».proof.Proof.Gen.ReferenceIdeal.Read
import proofs.«102155_j63780264346209_2_alg».proof.Proof.Gen.Pre_finite_inputs
import proofs.«102155_j63780264346209_2_alg».proof.Proof.K.Frame
import proofs.«102155_j63780264346209_2_alg».proof.Proof.KI.Frame
import proofs.«102155_j63780264346209_2_alg».proof.Proof.KI.ValueB
import proofs.«102155_j63780264346209_2_alg».proof.Proof.RefValue

noncomputable section

namespace Cert.Proof

open Idealize.ShloMosaic Idealize.SL.Sem

/-- The program as printed runs to the end and leaves its arguments unchanged. -/
theorem frame_k : Cert.frame_Kernel := fun m ρ _ => Cert.Kernel.Frame.frame (F := Bits) m ρ

/-- So does its idealization. -/
theorem frame_ki : Cert.frame_KernelIdeal := fun m ρ _ => Cert.KernelIdeal.Frame.frame (F := Ideal) m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the specification's function of the
    arguments in their result arrays. -/
theorem algebraic : Cert.algebraic_KernelIdeal_ReferenceIdeal := by
  intro m ρ m' ρ' _ hagree
  refine ⟨fun c => Cert.Mha.mha (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Frame.run_value m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v28_eq, Cert.ReferenceIdeal.RefValue.ref_is_mha,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
